-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64 .f32) (main_arg6 : FVec F S64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S2000x64 : Shape := ⟨2, ![2000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 166
  | .vmem => 18
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S64, .f32⟩
  | 73 => ⟨S_, .f32⟩
  | 74 => ⟨S64, .f32⟩
  | 75 => ⟨S64, .f32⟩
  | 76 => ⟨S_, .i32⟩
  | 77 => ⟨S_, .f32⟩
  | 78 => ⟨S64, .f32⟩
  | 79 => ⟨S1x64, .f32⟩
  | 80 => ⟨S_, .f32⟩
  | 81 => ⟨S1x64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S_, .f32⟩
  | 88 => ⟨S_, .f32⟩
  | 89 => ⟨S_, .f32⟩
  | 90 => ⟨S64, .f32⟩
  | 91 => ⟨S64, .f32⟩
  | 92 => ⟨S64, .f32⟩
  | 93 => ⟨S_, .f32⟩
  | 94 => ⟨S_, .i1⟩
  | 95 => ⟨S_, .f32⟩
  | 96 => ⟨S_, .f32⟩
  | 97 => ⟨S64, .f32⟩
  | 98 => ⟨S64, .f32⟩
  | 99 => ⟨S_, .f32⟩
  | 100 => ⟨S64, .f32⟩
  | 101 => ⟨S64, .f32⟩
  | 102 => ⟨S64, .f32⟩
  | 103 => ⟨S1x64, .f32⟩
  | 104 => ⟨S1x64, .f32⟩
  | 105 => ⟨S1x64, .f32⟩
  | 106 => ⟨S1x64, .f32⟩
  | 107 => ⟨S100000x64, .f32⟩
  | 108 => ⟨S100000x64, .f32⟩
  | 109 => ⟨S100000, .i32⟩
  | 110 => ⟨S1700000, .i32⟩
  | 111 => ⟨S1700000, .i32⟩
  | 112 => ⟨S_, .f32⟩
  | 113 => ⟨S100000, .f32⟩
  | 114 => ⟨S1700000, .f32⟩
  | 115 => ⟨S_, .f32⟩
  | 116 => ⟨S100000, .f32⟩
  | 117 => ⟨S1700000x1, .i32⟩
  | 118 => ⟨S100000, .f32⟩
  | 119 => ⟨S_, .f32⟩
  | 120 => ⟨S100000, .f32⟩
  | 121 => ⟨S100000, .i1⟩
  | 122 => ⟨S100000, .f32⟩
  | 123 => ⟨S_, .f32⟩
  | 124 => ⟨S_, .f32⟩
  | 125 => ⟨S100000, .f32⟩
  | 126 => ⟨S100000, .f32⟩
  | 127 => ⟨S_, .i32⟩
  | _ => ⟨S100000x64, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000, .f32⟩
  | 8 => ⟨S1700000, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000, .f32⟩
  | 18 => ⟨S1700000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000x64, .f32⟩
  | 28 => ⟨S1700000x1, .f32⟩
  | 29 => ⟨S1700000x64, .f32⟩
  | 30 => ⟨S1700000x64, .f32⟩
  | 31 => ⟨S_, .f32⟩
  | 32 => ⟨S100000x64, .f32⟩
  | 33 => ⟨S1700000x1, .i32⟩
  | 34 => ⟨S100000x64, .f32⟩
  | 35 => ⟨S1x64, .f32⟩
  | 36 => ⟨S100000x64, .f32⟩
  | 37 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S64x64, .f32⟩
  | .local _ .vmem, ⟨16, _⟩ => ⟨S2000x64, .f32⟩
  | .local _ .vmem, ⟨17, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_cst_3 : Ref sig .tc := ⟨.hbm, 93, rfl⟩
abbrev main_call1_v12 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v52 : Ref sig .tc := ⟨.hbm, 98, rfl⟩
abbrev main_cst_12 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_13 : Ref sig .tc := ⟨.hbm, 112, rfl⟩
abbrev main_v65 : Ref sig .tc := ⟨.hbm, 113, rfl⟩
abbrev main_v66 : Ref sig .tc := ⟨.hbm, 114, rfl⟩
abbrev main_cst_14 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_15 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_16 : Ref sig .tc := ⟨.hbm, 123, rfl⟩
abbrev main_call2_v0 : Ref sig .tc := ⟨.hbm, 124, rfl⟩
abbrev main_call2_v1 : Ref sig .tc := ⟨.hbm, 125, rfl⟩
abbrev main_v73 : Ref sig .tc := ⟨.hbm, 126, rfl⟩
abbrev main_c_17 : Ref sig .tc := ⟨.hbm, 127, rfl⟩
abbrev main_v74 : Ref sig .tc := ⟨.hbm, 128, rfl⟩
abbrev main_v75 : Ref sig .tc := ⟨.hbm, 129, rfl⟩
abbrev main_c_18 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_c_19 : Ref sig .tc := ⟨.hbm, 137, rfl⟩
abbrev main_v82 : Ref sig .tc := ⟨.hbm, 138, rfl⟩
abbrev main_v83 : Ref sig .tc := ⟨.hbm, 139, rfl⟩
abbrev main_c_20 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_c_21 : Ref sig .tc := ⟨.hbm, 147, rfl⟩
abbrev main_v90 : Ref sig .tc := ⟨.hbm, 148, rfl⟩
abbrev main_v91 : Ref sig .tc := ⟨.hbm, 149, rfl⟩
abbrev main_c_22 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_23 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x64_S64x64_S2000x64_1_0_0_1_n_n_wf : DotDims.WF S2000x64 S64x64 S2000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 176
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S64, .f32⟩
  | 73 => ⟨S_, .f32⟩
  | 74 => ⟨S64, .f32⟩
  | 75 => ⟨S64, .f32⟩
  | 76 => ⟨S_, .i32⟩
  | 77 => ⟨S_, .f32⟩
  | 78 => ⟨S64, .f32⟩
  | 79 => ⟨S1x64, .f32⟩
  | 80 => ⟨S_, .f32⟩
  | 81 => ⟨S1x64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S_, .f32⟩
  | 88 => ⟨S_, .f32⟩
  | 89 => ⟨S_, .f32⟩
  | 90 => ⟨S64, .f32⟩
  | 91 => ⟨S64, .f32⟩
  | 92 => ⟨S64, .f32⟩
  | 93 => ⟨S_, .f32⟩
  | 94 => ⟨S_, .i1⟩
  | 95 => ⟨S_, .f32⟩
  | 96 => ⟨S_, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S64, .f32⟩
  | 107 => ⟨S64, .f32⟩
  | 108 => ⟨S64, .f32⟩
  | 109 => ⟨S1x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S100000x64, .f32⟩
  | 119 => ⟨S100000, .i32⟩
  | 120 => ⟨S1700000, .i32⟩
  | 121 => ⟨S1700000, .i32⟩
  | 122 => ⟨S_, .f32⟩
  | 123 => ⟨S100000, .f32⟩
  | 124 => ⟨S1700000, .f32⟩
  | 125 => ⟨S_, .f32⟩
  | 126 => ⟨S100000, .f32⟩
  | 127 => ⟨S1700000x1, .i32⟩
  | _ => ⟨S100000x64, .f32⟩

abbrev hbmTy0_1 (i : Nat) : BufTy := match i % 128 with
  | 0 => ⟨S100000, .f32⟩
  | 1 => ⟨S_, .f32⟩
  | 2 => ⟨S100000, .f32⟩
  | 3 => ⟨S100000, .i1⟩
  | 4 => ⟨S100000, .f32⟩
  | 5 => ⟨S_, .f32⟩
  | 6 => ⟨S_, .f32⟩
  | 7 => ⟨S100000, .f32⟩
  | 8 => ⟨S100000, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000, .f32⟩
  | 18 => ⟨S1700000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000, .f32⟩
  | 28 => ⟨S1700000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000x64, .f32⟩
  | 38 => ⟨S1700000x1, .f32⟩
  | 39 => ⟨S1700000x64, .f32⟩
  | 40 => ⟨S1700000x64, .f32⟩
  | 41 => ⟨S_, .f32⟩
  | 42 => ⟨S100000x64, .f32⟩
  | 43 => ⟨S1700000x1, .i32⟩
  | 44 => ⟨S100000x64, .f32⟩
  | 45 => ⟨S1x64, .f32⟩
  | 46 => ⟨S100000x64, .f32⟩
  | 47 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_cst_3 : Ref sig .tc := ⟨.hbm, 93, rfl⟩
abbrev main_call1_v12 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_12 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_call2_cst : Ref sig .tc := ⟨.hbm, 115, rfl⟩
abbrev main_call2_v0 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_13 : Ref sig .tc := ⟨.hbm, 122, rfl⟩
abbrev main_v73 : Ref sig .tc := ⟨.hbm, 123, rfl⟩
abbrev main_v74 : Ref sig .tc := ⟨.hbm, 124, rfl⟩
abbrev main_cst_14 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_15 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_16 : Ref sig .tc := ⟨.hbm, 133, rfl⟩
abbrev main_call3_v0 : Ref sig .tc := ⟨.hbm, 134, rfl⟩
abbrev main_call3_v1 : Ref sig .tc := ⟨.hbm, 135, rfl⟩
abbrev main_v81 : Ref sig .tc := ⟨.hbm, 136, rfl⟩
abbrev main_c_17 : Ref sig .tc := ⟨.hbm, 137, rfl⟩
abbrev main_v82 : Ref sig .tc := ⟨.hbm, 138, rfl⟩
abbrev main_v83 : Ref sig .tc := ⟨.hbm, 139, rfl⟩
abbrev main_c_18 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_c_19 : Ref sig .tc := ⟨.hbm, 147, rfl⟩
abbrev main_v90 : Ref sig .tc := ⟨.hbm, 148, rfl⟩
abbrev main_v91 : Ref sig .tc := ⟨.hbm, 149, rfl⟩
abbrev main_c_20 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_c_21 : Ref sig .tc := ⟨.hbm, 157, rfl⟩
abbrev main_v98 : Ref sig .tc := ⟨.hbm, 158, rfl⟩
abbrev main_v99 : Ref sig .tc := ⟨.hbm, 159, rfl⟩
abbrev main_c_22 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_cst_23 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The kernel program's run with its result named.

  The program is twelve segments in order: stretches of host operations and three regions. Every weakly fair execution
  from a memory with zero counters terminates, nothing faulting; afterwards every unscoped buffer of a core holds
  the last segment boundary's contents — the fold of the segments over the launch memory (a stretch's operations in
  order; a region's arrays at what its write-backs leave) —, in particular the result buffer, and the nine argument
  arrays are as launched.
-/
import proofs.«182157_j43671227465977_1_alg».proof.Proof.Gen.KernelIdeal.Frame

set_option maxRecDepth 16384

noncomputable section

namespace Cert.KernelIdeal.GcnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v105) = W12 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v105 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.GcnRun

end
-- ==== Proof.Spec.lean ====
/-
  The two programs as one function of the nine argument arrays.

  Both programs compute a two-layer graph convolution with a batch normalisation and a rectifier in between.
  One layer, from node features h (N rows of 64), the edge list (source row s, destination row d, one weight
  per edge) and a bias b: append the N self loops of weight one; deg = the sum of the weights arriving at each node;
  dinv = 1/sqrt(deg) where deg > 0 and 0 elsewhere; every edge e carries the coefficient
  dinv(s e) * w e * dinv(d e); the layer's output at node n is the sum over the edges arriving at n of the
  coefficient times row s(e) of h, plus b. (`aggregate`; negative indices wrap by N as jnp's indexing does.)
  Between the layers every column is centred by its mean over the N nodes and scaled by 1/sqrt(variance + eps),
  then gamma * (.) * inv + beta and the maximum with zero (`normRelu`). Each layer first multiplies the features
  by a 64 x 64 weight (`rowsTimes`: entry (r, c) is the sum over k of a(r, k) * w(k, c)).
-/
import proofs.«182157_j43671227465977_1_alg».proof.Proof.Gen.KernelIdeal
import Idealize.ShloMosaic.PureOps.Ideal
import Idealize.ShloMosaic.Lib.ValueIdx

noncomputable section

open scoped BigOperators

namespace Cert.Gcn

open Idealize.ShloMosaic Idealize.ShloMosaic.ValueIdx Cert.KernelIdeal Cert.KernelIdeal.Facts₀

variable {F : FTy → Type} [FloatOps F]

/-- Row 0 of the edge list: the source node of every edge. -/
def edgeSrc (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of every edge. -/
def edgeDst (ei : IVec S2x1600000 32) : IVec S1600000 32 :=
  shapeCast S1600000 (extractStridedSlice S1x1600000 ![1, 0] ei slices_S2x1600000_S1x1600000_1_0) shapeCasts_S1x1600000_S1600000

/-- An index list made a column of start indices, a negative entry first wrapped by the number of nodes. -/
def wrapCol (i : IVec S1700000 32) : IVec S1700000x1 32 :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- The edge list with the self loops appended (sources or destinations). -/
def withLoops (s : IVec S1600000 32) : IVec S1700000 32 :=
  concatenate S1700000 0 [⟨S1600000, s⟩, ⟨S100000, iotaInDim S100000 32 0⟩] concatenates_S1600000_S100000_S1700000_d0

/-- The edge weights with the self loops' weight one appended. -/
def weights (ef : FVec F S1600000 .f32) : FVec F S1700000 .f32 :=
  concatenate S1700000 0 [⟨S1600000, ef⟩, ⟨S100000, broadcastInDim S100000 ![] bcast_S_S100000 (constant S_ .f32 0x3F800000#32)⟩]
    concatenates_S1600000_S100000_S1700000_d0

/-- 1/sqrt of the weighted in-degree where that is positive, zero elsewhere. -/
def invSqrtDeg (d : IVec S1600000 32) (ef : FVec F S1600000 .f32) : FVec F S100000 .f32 :=
  let deg : FVec F S100000 .f32 := Host.scatterAdd scatter_S100000_S1700000x1_S1700000_n_0_0_1
    (broadcastInDim S100000 ![] bcast_S_S100000 (constant S_ .f32 0x00000000#32))
    (broadcastInDim S1700000x1 ![0] bcast_S1700000_S1700000x1_0 (withLoops d)) (weights ef)
  select (cmpf .ogt deg (broadcastInDim S100000 ![] bcast_S_S100000 (constant S_ .f32 0x00000000#32))) (Host.rsqrt deg)
    (broadcastInDim S100000 ![] bcast_S_S100000 (id (constant S_ .f32 0x00000000#32)))

/-- The coefficient of every edge: dinv at its source, times its weight, times dinv at its destination. -/
def edgeCoef (s d : IVec S1600000 32) (ef : FVec F S1600000 .f32) : FVec F S1700000 .f32 :=
  mulf (mulf (Host.gather gather_S100000_S1700000x1_S1700000_n_0_n_n_0_1_1 (invSqrtDeg d ef) (wrapCol (withLoops s))) (weights ef))
    (Host.gather gather_S100000_S1700000x1_S1700000_n_0_n_n_0_1_1 (invSqrtDeg d ef) (wrapCol (withLoops d)))

/-- One graph-convolution layer after the weight product: gather the source rows, scale each by its edge's coefficient,
    add them up at the destinations, add the bias. -/
def aggregate (h : FVec F S100000x64 .f32) (s d : IVec S1600000 32) (ef : FVec F S1600000 .f32) (b : FVec F S64 .f32) :
    FVec F S100000x64 .f32 :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 (withLoops d))
      (mulf (Host.gather gather_S100000x64_S1700000x1_S1700000x64_1_0_n_n_0_1_164 h (wrapCol (withLoops s)))
        (broadcastInDim S1700000x64 ![0, 1] bcast_S1700000x1_S1700000x64_0_1
          (broadcastInDim S1700000x1 ![0] bcast_S1700000_S1700000x1_0 (edgeCoef s d ef)))))
    (broadcastInDim S100000x64 ![0, 1] bcast_S1x64_S100000x64_0_1 (broadcastInDim S1x64 ![1] bcast_S64_S1x64_1 b))

/-- The mean of every column over the nodes. -/
def colMean (h : FVec F S100000x64 .f32) : FVec F S64 .f32 :=
  Host.divf (Host.reduceAdd h (constant S_ .f32 0x00000000#32) reducesTo_S100000x64_S64_d0 h_S_)
    (broadcastInDim S64 ![] bcast_S_S64 (constant S_ .f32 0x47C35000#32))

/-- The (biased) variance of every column over the nodes, as jnp.var computes it with zero degrees of freedom removed. -/
def colVar (h : FVec F S100000x64 .f32) : FVec F S64 .f32 :=
  let mu : FVec F S1x64 .f32 := Host.divf
    (broadcastInDim S1x64 ![1] bcast_S64_S1x64_1 (Host.reduceAdd h (constant S_ .f32 0x00000000#32) reducesTo_S100000x64_S64_d0 h_S_))
    (broadcastInDim S1x64 ![] bcast_S_S1x64 (constant S_ .f32 0x47C35000#32))
  let dev : FVec F S100000x64 .f32 := subf h (broadcastInDim S100000x64 ![0, 1] bcast_S1x64_S100000x64_0_1 mu)
  let cnt : FVec F S_ .f32 := subf (constant S_ .f32 0x47C35000#32) (sitofp .f32 (constantI S_ 32 0#32))
  select (broadcastInDim S64 ![] bcast_S_S64 (cmpf .ogt cnt (constant S_ .f32 0x00000000#32)))
    (Host.divf (Host.reduceAdd (mulf dev dev) (constant S_ .f32 0x00000000#32) reducesTo_S100000x64_S64_d0 h_S_)
      (broadcastInDim S64 ![] bcast_S_S64 cnt))
    (broadcastInDim S64 ![] bcast_S_S64 (id (constant S_ .f32 0x7FC00000#32)))

/-- 1/sqrt(variance + eps) of every column. -/
def colInvStd (h : FVec F S100000x64 .f32) : FVec F S64 .f32 :=
  Host.rsqrt (addf (colVar h) (broadcastInDim S64 ![] bcast_S_S64 (constant S_ .f32 0x3727C5AC#32)))

/-- A length-64 vector laid along every row of an N x 64 array. -/
def alongRows (v : FVec F S64 .f32) : FVec F S100000x64 .f32 :=
  broadcastInDim S100000x64 ![0, 1] bcast_S1x64_S100000x64_0_1 (broadcastInDim S1x64 ![1] bcast_S64_S1x64_1 v)

/-- The normalisation and the rectifier: max(gamma * (h - mu) * inv + beta, 0), entry by entry. -/
def normRelu (h : FVec F S100000x64 .f32) (mu inv gamma beta : FVec F S64 .f32) : FVec F S100000x64 .f32 :=
  maximumf (addf (mulf (mulf (alongRows gamma) (subf h (alongRows mu))) (alongRows inv)) (alongRows beta))
    (broadcastInDim S100000x64 ![] bcast_S_S100000x64 (constant S_ .f32 0x00000000#32))

/-- Rows times a 64 x 64 weight on the extended reals: entry (r, c) is the sum over k of a(r, k) * w(k, c). -/
def rowsTimes (a : FVec Ideal S100000x64 .f32) (w : FVec Ideal S64x64 .f32) : FVec Ideal S100000x64 .f32 :=
  fun i => ∑ k : Fin 64, a (ix2 (i 0) k) * w (ix2 k (i 1))

/-- The hidden features after the first layer. -/
def hidden (x : FVec Ideal S100000x64 .f32) (ei : IVec S2x1600000 32) (ef : FVec Ideal S1600000 .f32)
    (w1 : FVec Ideal S64x64 .f32) (b1 : FVec Ideal S64 .f32) : FVec Ideal S100000x64 .f32 :=
  aggregate (rowsTimes x w1) (edgeSrc ei) (edgeDst ei) ef b1

/-- The whole network's output. -/
def network (x : FVec Ideal S100000x64 .f32) (ei : IVec S2x1600000 32) (ef : FVec Ideal S1600000 .f32)
    (w1 : FVec Ideal S64x64 .f32) (b1 gamma beta : FVec Ideal S64 .f32) (w2 : FVec Ideal S64x64 .f32) (b2 : FVec Ideal S64 .f32) :
    FVec Ideal S100000x64 .f32 :=
  aggregate
    (rowsTimes (normRelu (hidden x ei ef w1 b1) (colMean (hidden x ei ef w1 b1)) (colInvStd (hidden x ei ef w1 b1)) gamma beta) w2)
    (edgeSrc ei) (edgeDst ei) ef b2

end Cert.Gcn

end
-- ==== Proof.KValue.lean ====
/-
  What the kernel program's stretches of host operations compute, each as one function of the buffers it reads.

  Before the first region: the edges' sources and destinations. Between the first and the second region: one layer on
  the first region's product, the column mean and 1/sqrt(variance + eps) of that layer's output, and the four row
  vectors the second region reads (each a length-64 vector as a 1 x 64 array). After the third region: one layer on its
  product — the program's result. Each equation is the fold of the stretch's operations read at one buffer.
-/
import proofs.«182157_j43671227465977_1_alg».proof.Proof.Gen.KernelIdeal.Launch
import proofs.«182157_j43671227465977_1_alg».proof.Proof.Spec
import Idealize.ShloMosaic.Lib.StableHlo.Run

set_option maxRecDepth 16384

noncomputable section

namespace Cert.KernelIdeal.Stretches

open Cert.KernelIdeal Cert.KernelIdeal.Gen Cert.Gcn
open Idealize.ShloMosaic Idealize.ShloMosaic.TcCoe Idealize.SL.Sem Idealize.ShloMosaic.StableHlo

variable {F : FTy → Type} [FloatOps F]

/-- The fold of literal lines read at a literal buffer: unfold the folds, then each operation's result decides by
    computation whether the buffer read is the one it writes. -/
local macro "read_fold" : tactic => `(tactic| (simp only [after_cons, after_nil]; rfl))

attribute [local irreducible] Host.scatterAdd Host.gather Host.reduceAdd concatenate

/-- The contents between the first and the second region, from those the first region leaves. -/
abbrev mid (V : Valuation τ sig (Elt F)) : Valuation τ sig (Elt F) :=
  after hostOps1_4 (after hostOps1_3 (after hostOps1_2 (after hostOps1_1 (after hostOps1 V))))

/-- The contents at the return, from those the third region leaves. -/
abbrev fin (V : Valuation τ sig (Elt F)) : Valuation τ sig (Elt F) :=
  after hostOps3_2 (after hostOps3_1 (after hostOps3 V))

theorem pre_src (V : Valuation τ sig (Elt F)) :
    after hostOps0 V (main_v1 : DevRef τ sig) = edgeSrc (V (main_arg1 : DevRef τ sig)) := by
  read_fold
theorem pre_dst (V : Valuation τ sig (Elt F)) :
    after hostOps0 V (main_v3 : DevRef τ sig) = edgeDst (V (main_arg1 : DevRef τ sig)) := by
  read_fold

/-- The first layer's output, from the first region's product. -/
theorem mid_hidden (V : Valuation τ sig (Elt F)) :
    mid V (main_v48 : DevRef τ sig)
      = aggregate (V (main_v4 : DevRef τ sig)) (V (main_v1 : DevRef τ sig)) (V (main_v3 : DevRef τ sig))
          (V (main_arg2 : DevRef τ sig)) (V (main_arg4 : DevRef τ sig)) := by
  read_fold

theorem mid_gamma (V : Valuation τ sig (Elt F)) :
    mid V (main_v56 : DevRef τ sig) = shapeCast S1x64 (V (main_arg5 : DevRef τ sig)) Facts₀.shapeCasts_S64_S1x64 := by
  read_fold
theorem mid_beta (V : Valuation τ sig (Elt F)) :
    mid V (main_v57 : DevRef τ sig) = shapeCast S1x64 (V (main_arg6 : DevRef τ sig)) Facts₀.shapeCasts_S64_S1x64 := by
  read_fold
theorem mid_mean (V : Valuation τ sig (Elt F)) :
    mid V (main_v58 : DevRef τ sig)
      = shapeCast S1x64 (colMean (aggregate (V (main_v4 : DevRef τ sig)) (V (main_v1 : DevRef τ sig)) (V (main_v3 : DevRef τ sig))
          (V (main_arg2 : DevRef τ sig)) (V (main_arg4 : DevRef τ sig)))) Facts₀.shapeCasts_S64_S1x64 := by
  read_fold
set_option maxHeartbeats 4000000 in
theorem mid_invStd (V : Valuation τ sig (Elt F)) :
    mid V (main_v59 : DevRef τ sig)
      = shapeCast S1x64 (colInvStd (aggregate (V (main_v4 : DevRef τ sig)) (V (main_v1 : DevRef τ sig)) (V (main_v3 : DevRef τ sig))
          (V (main_arg2 : DevRef τ sig)) (V (main_arg4 : DevRef τ sig)))) Facts₀.shapeCasts_S64_S1x64 := by
  read_fold

/-- The second layer's output, from the third region's product: the program's result. -/
theorem fin_out (V : Valuation τ sig (Elt F)) :
    fin V (main_v105 : DevRef τ sig)
      = aggregate (V (main_v61 : DevRef τ sig)) (V (main_v1 : DevRef τ sig)) (V (main_v3 : DevRef τ sig))
          (V (main_arg2 : DevRef τ sig)) (V (main_arg8 : DevRef τ sig)) := by
  read_fold

/-- The first stretch writes no argument array. -/
theorem pre_keep (V : Valuation τ sig (Elt F)) :
    after hostOps0 V (main_arg0 : DevRef τ sig) = V (main_arg0 : DevRef τ sig)
    ∧ after hostOps0 V (main_arg1 : DevRef τ sig) = V (main_arg1 : DevRef τ sig)
    ∧ after hostOps0 V (main_arg2 : DevRef τ sig) = V (main_arg2 : DevRef τ sig)
    ∧ after hostOps0 V (main_arg3 : DevRef τ sig) = V (main_arg3 : DevRef τ sig)
    ∧ after hostOps0 V (main_arg4 : DevRef τ sig) = V (main_arg4 : DevRef τ sig)
    ∧ after hostOps0 V (main_arg5 : DevRef τ sig) = V (main_arg5 : DevRef τ sig)
    ∧ after hostOps0 V (main_arg6 : DevRef τ sig) = V (main_arg6 : DevRef τ sig)
    ∧ after hostOps0 V (main_arg7 : DevRef τ sig) = V (main_arg7 : DevRef τ sig)
    ∧ after hostOps0 V (main_arg8 : DevRef τ sig) = V (main_arg8 : DevRef τ sig) := by
  simp only [after_cons, after_nil]
  exact ⟨rfl, rfl, rfl, rfl, rfl, rfl, rfl, rfl, rfl⟩

/-- The stretch between the regions leaves the edge lists, the edge weights and the second layer's weight and bias in place. -/
theorem mid_keep (V : Valuation τ sig (Elt F)) :
    mid V (main_v1 : DevRef τ sig) = V (main_v1 : DevRef τ sig)
    ∧ mid V (main_v3 : DevRef τ sig) = V (main_v3 : DevRef τ sig)
    ∧ mid V (main_arg2 : DevRef τ sig) = V (main_arg2 : DevRef τ sig)
    ∧ mid V (main_arg7 : DevRef τ sig) = V (main_arg7 : DevRef τ sig)
    ∧ mid V (main_arg8 : DevRef τ sig) = V (main_arg8 : DevRef τ sig) := by
  simp only [after_cons, after_nil]
  exact ⟨rfl, rfl, rfl, rfl, rfl⟩

end Cert.KernelIdeal.Stretches

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.RegionMatmul.lean ====
/-
  Each matrix-product region's output array as one function of its input arrays.

  The kernel of regions 0 and 2 takes rows 2000 t ... 2000 t + 1999 of the left operand and the whole 64 x 64 weight,
  and leaves in its output block the product of the two into a zero accumulator; at the ideal instance the
  truncations to bf16 are the identity, so entry (p, q) of the block is the sum over k of a(2000 t + p, k) * w(k, q).
  The fifty blocks tile the 100000 rows, so the output array is the rows of the left operand times the weight.
-/
import proofs.«182157_j43671227465977_1_alg».proof.Proof.Gen.KernelIdeal.Frame
import proofs.«182157_j43671227465977_1_alg».proof.Proof.Spec
import proofs.«182157_j43671227465977_1_alg».proof.Proof.LibMatmulRows
import Idealize.ShloMosaic.Lib.Pipeline.Value

noncomputable section

open scoped BigOperators

namespace Cert.Gcn.Regions

open Idealize.ShloMosaic Idealize.ShloMosaic.TcCoe Idealize.SL.Sem Cert.KernelIdeal Cert.KernelIdeal.Gen Cert.Gcn
open Idealize.ShloMosaic.ValueIdx Idealize.ShloMosaic.MatmulRows
open Idealize.ShloMosaic.Pipeline (Dat)

/-- The zero offsets of a whole-buffer access, as a constant function. -/
theorem zeroOffsets : (![0, 0] : Fin 2 → Nat) = fun _ => 0 := funext fun a => by fin_cases a <;> rfl

/-! ## One block: the product at an entry -/

/-- Entry j = (p, q) of the product of a 2000 x 64 block and the 64 x 64 weight, both truncated to bf16 (the identity on
    the extended reals), into the zero accumulator: the sum over k of a(p, k) * w(k, q). -/
theorem blockProduct_apply (a : FVec Ideal S2000x64 .f32) (w : FVec Ideal S64x64 .f32) (j : S2000x64.Idx) :
    matmul dot_S2000x64_S64x64_S2000x64_1_0_0_1_n_n none (truncf .bf16 a bitsLt_bf16_f32) (truncf .bf16 w bitsLt_bf16_f32)
        (constant (F := Ideal) S2000x64 .f32 0x00000000#32) j
      = ∑ k : Fin 64, a (ix2 (j 0) k) * w (ix2 k (j 1)) :=
  matmul_zero_apply dot_S2000x64_S64x64_S2000x64_1_0_0_1_n_n none rfl rfl rfl rfl (fun _ _ => rfl) (fun _ _ => rfl)
    (truncf .bf16 a bitsLt_bf16_f32) (truncf .bf16 w bitsLt_bf16_f32) j

/-- The kernel's block (regions 0's body), entry by entry: the plain product of the block and the weight. -/
theorem blockOut0_apply (x0 : Vec Ideal S2000x64 .f32) (x1 : Vec Ideal S64x64 .f32) (j : S2000x64.Idx) :
    k0_pay1 x0 x1 j = ∑ k : Fin 64, x0 (ix2 (j 0) k) * x1 (ix2 k (j 1)) :=
  blockProduct_apply x0 x1 j

/-- Region 2's body first casts its block to its own shape: the same product. -/
theorem blockOut2_apply (x0 : Vec Ideal S2000x64 .f32) (x1 : Vec Ideal S64x64 .f32) (j : S2000x64.Idx) :
    k2_pay1 x0 x1 j = ∑ k : Fin 64, x0 (ix2 (j 0) k) * x1 (ix2 k (j 1)) := by
  unfold k2_pay1
  rw [shapeCast_self]
  exact blockProduct_apply x0 x1 j

/-! ## Region 0 -/

/-- The printed index maps over the fifty points: the left operand's and the output's block index is the point on the
    rows and zero on the columns, the weight's is zero. -/
theorem indexMaps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Region0
variable (V : (c : Dev nD) → (b : Ref sig .tc) → Buf (Elt Ideal) ((c : Thread nD τ).loc b)) (c : Dev nD)

/-- The left operand's block at point t is rows 2000 t ... 2000 t + 1999 of the array. -/
theorem leftBlock0 (t : Fin cfg0.N) (x : S2000x64.Idx) (i : S100000x64.Idx)
    (h0 : (i 0).val = 2000 * t.val + (x 0).val) (h1 : (i 1).val = (x 1).val) :
    (iblk0 (F := Ideal) V c 0 t : Vec Ideal S2000x64 .f32) x = (V c main_arg0 : S100000x64.Idx → Elt Ideal .f32) i := by
  obtain ⟨e0, e1, -, -, -, -⟩ := indexMaps0 t
  unfold iblk0
  rw [View.read_apply]
  show V c main_arg0 _ = V c main_arg0 _
  refine congrArg _ (funext fun a => Fin.ext ?_)
  match a with
  | ⟨0, _⟩ => show win0_0.index t (0 : Fin 2) * 2000 + 1 * (x 0).val = (i 0).val; omega
  | ⟨1, _⟩ => show win0_0.index t (1 : Fin 2) * 64 + 1 * (x 1).val = (i 1).val; omega

/-- The weight's block at every point is the whole weight. -/
theorem weightBlock0 (t : Fin cfg0.N) (x : S64x64.Idx) (i : S64x64.Idx)
    (h0 : (i 0).val = (x 0).val) (h1 : (i 1).val = (x 1).val) :
    (iblk0 (F := Ideal) V c 1 t : Vec Ideal S64x64 .f32) x = (V c main_arg3 : S64x64.Idx → Elt Ideal .f32) i := by
  obtain ⟨-, -, e0, e1, -, -⟩ := indexMaps0 t
  unfold iblk0
  rw [View.read_apply]
  show V c main_arg3 _ = V c main_arg3 _
  refine congrArg _ (funext fun a => Fin.ext ?_)
  match a with
  | ⟨0, _⟩ => show win0_1.index t (0 : Fin 2) * 64 + 1 * (x 0).val = (i 0).val; omega
  | ⟨1, _⟩ => show win0_1.index t (1 : Fin 2) * 64 + 1 * (x 1).val = (i 1).val; omega

/-- What point t writes back is block t of the rows of the left operand times the weight. -/
theorem flushed0 (t : Fin cfg0.N) :
    (dat0 (F := Ideal) V c).flushed 2 t
      = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero zeroOffsets]
  simp only [View.ld_unit_zero (S := S2000x64) zeroOffsets, View.ld_unit_zero (S := S64x64) zeroOffsets]
  obtain ⟨-, -, -, -, e0, e1⟩ := indexMaps0 t
  funext j
  show k0_pay1 (iblk0 V c 0 t) (iblk0 V c 1 t) j
    = rowsTimes (V c main_arg0) (V c main_arg3) (((cfg0.win 2).blk t).view.emb j)
  refine (blockOut0_apply _ _ j).trans (Finset.sum_congr rfl fun k _ => ?_)
  have r0 : ((((cfg0.win 2).blk t).view.emb j) 0).val = 2000 * t.val + (j 0).val := by
    show win0_2.index t (0 : Fin 2) * 2000 + 1 * (j 0).val = _; omega
  have r1 : ((((cfg0.win 2).blk t).view.emb j) 1).val = (j 1).val := by
    show win0_2.index t (1 : Fin 2) * 64 + 1 * (j 1).val = _; omega
  exact congrArg₂ (· * ·) (leftBlock0 V c t _ _ r0 rfl) (weightBlock0 V c t _ _ rfl r1)

end Region0

section Region0Array
variable (V : (c : Dev nD) → (b : Ref sig .tc) → Buf (Elt Ideal) ((c : Thread nD τ).loc b)) (c : Dev nD)

/-- An index of the output array is in point t's block iff each coordinate is in the block's range on its axis. -/
theorem mem_outBlock0 (t : Fin cfg0.N) (i : S100000x64.Idx) :
    i ∈ ((cfg0.win 2).blk t).view.set
      ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- Row r of the output is in the block of point r / 2000, which writes back. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 50 := N_0
  have ht : (i 0).val / 2000 < cfg0.N := by show (i 0).val / 2000 < grid0.N; omega
  obtain ⟨-, -, -, -, e0, e1⟩ := indexMaps0 ⟨(i 0).val / 2000, ht⟩
  refine ⟨⟨(i 0).val / 2000, ht⟩, flush0_2 _, ?_⟩
  rw [mem_outBlock0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 64 ≤ (i 1).val
      ∧ (i 1).val < win0_2.index ⟨(i 0).val / 2000, ht⟩ (1 : Fin 2) * 64 + 64
    rw [e1]; omega

/-- REGION 0: its output array ends holding the rows of the left operand times the weight. -/
theorem region0_value : (dat0 (F := Ideal) V c).arrAt 2 cfg0.N = rowsTimes (V c main_arg0) (V c main_arg3) :=
  (dat0 (F := Ideal) V c).arrAt_eq_of_cover 2 (rowsTimes (V c main_arg0) (V c main_arg3)) (fun t _ => flushed0 V c t) covered0

end Region0Array

/-! ## Region 2 -/

/-- The printed index maps over the fifty points: the left operand's and the output's block index is the point on the
    rows and zero on the columns, the weight's is zero. -/
theorem indexMaps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Region2
variable (V : (c : Dev nD) → (b : Ref sig .tc) → Buf (Elt Ideal) ((c : Thread nD τ).loc b)) (c : Dev nD)

/-- The left operand's block at point t is rows 2000 t ... 2000 t + 1999 of the array. -/
theorem leftBlock2 (t : Fin cfg2.N) (x : S2000x64.Idx) (i : S100000x64.Idx)
    (h0 : (i 0).val = 2000 * t.val + (x 0).val) (h1 : (i 1).val = (x 1).val) :
    (iblk2 (F := Ideal) V c 0 t : Vec Ideal S2000x64 .f32) x = (V c main_v60 : S100000x64.Idx → Elt Ideal .f32) i := by
  obtain ⟨e0, e1, -, -, -, -⟩ := indexMaps2 t
  unfold iblk2
  rw [View.read_apply]
  show V c main_v60 _ = V c main_v60 _
  refine congrArg _ (funext fun a => Fin.ext ?_)
  match a with
  | ⟨0, _⟩ => show win2_0.index t (0 : Fin 2) * 2000 + 1 * (x 0).val = (i 0).val; omega
  | ⟨1, _⟩ => show win2_0.index t (1 : Fin 2) * 64 + 1 * (x 1).val = (i 1).val; omega

/-- The weight's block at every point is the whole weight. -/
theorem weightBlock2 (t : Fin cfg2.N) (x : S64x64.Idx) (i : S64x64.Idx)
    (h0 : (i 0).val = (x 0).val) (h1 : (i 1).val = (x 1).val) :
    (iblk2 (F := Ideal) V c 1 t : Vec Ideal S64x64 .f32) x = (V c main_arg7 : S64x64.Idx → Elt Ideal .f32) i := by
  obtain ⟨-, -, e0, e1, -, -⟩ := indexMaps2 t
  unfold iblk2
  rw [View.read_apply]
  show V c main_arg7 _ = V c main_arg7 _
  refine congrArg _ (funext fun a => Fin.ext ?_)
  match a with
  | ⟨0, _⟩ => show win2_1.index t (0 : Fin 2) * 64 + 1 * (x 0).val = (i 0).val; omega
  | ⟨1, _⟩ => show win2_1.index t (1 : Fin 2) * 64 + 1 * (x 1).val = (i 1).val; omega

/-- What point t writes back is block t of the rows of the left operand times the weight. -/
theorem flushed2 (t : Fin cfg2.N) :
    (dat2 (F := Ideal) V c).flushed 2 t
      = ((cfg2.win 2).blk t).view.read (Elt Ideal) (rowsTimes (V c main_v60) (V c main_arg7)) := by
  show (cfg2.win 2).cut (grid2.coords t) ((dat2 V c).after 2 t) = _
  rw [after2_2]
  unfold out2_2
  rw [View.canon_unit_zero zeroOffsets]
  simp only [View.ld_unit_zero (S := S2000x64) zeroOffsets, View.ld_unit_zero (S := S64x64) zeroOffsets]
  obtain ⟨-, -, -, -, e0, e1⟩ := indexMaps2 t
  funext j
  show k2_pay1 (iblk2 V c 0 t) (iblk2 V c 1 t) j
    = rowsTimes (V c main_v60) (V c main_arg7) (((cfg2.win 2).blk t).view.emb j)
  refine (blockOut2_apply _ _ j).trans (Finset.sum_congr rfl fun k _ => ?_)
  have r0 : ((((cfg2.win 2).blk t).view.emb j) 0).val = 2000 * t.val + (j 0).val := by
    show win2_2.index t (0 : Fin 2) * 2000 + 1 * (j 0).val = _; omega
  have r1 : ((((cfg2.win 2).blk t).view.emb j) 1).val = (j 1).val := by
    show win2_2.index t (1 : Fin 2) * 64 + 1 * (j 1).val = _; omega
  exact congrArg₂ (· * ·) (leftBlock2 V c t _ _ r0 rfl) (weightBlock2 V c t _ _ rfl r1)

end Region2

section Region2Array
variable (V : (c : Dev nD) → (b : Ref sig .tc) → Buf (Elt Ideal) ((c : Thread nD τ).loc b)) (c : Dev nD)

/-- An index of the output array is in point t's block iff each coordinate is in the block's range on its axis. -/
theorem mem_outBlock2 (t : Fin cfg2.N) (i : S100000x64.Idx) :
    i ∈ ((cfg2.win 2).blk t).view.set
      ↔ ∀ a : Fin 2, win2_2.index t a * S2000x64.size a ≤ (i a).val ∧ (i a).val < win2_2.index t a * S2000x64.size a + S2000x64.size a := by
  show i ∈ ((View.whole main_v61).slice (win2_2.rect t)).set ↔ _
  rw [View.set_slice_whole, Rect.mem_set_unit]
  exact Iff.rfl

/-- Row r of the output is in the block of point r / 2000, which writes back. -/
theorem covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 50 := N_2
  have ht : (i 0).val / 2000 < cfg2.N := by show (i 0).val / 2000 < grid2.N; omega
  obtain ⟨-, -, -, -, e0, e1⟩ := indexMaps2 ⟨(i 0).val / 2000, ht⟩
  refine ⟨⟨(i 0).val / 2000, ht⟩, flush2_2 _, ?_⟩
  rw [mem_outBlock2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    rw [e1]; omega

/-- REGION 2: its output array ends holding the rows of the left operand times the weight. -/
theorem region2_value : (dat2 (F := Ideal) V c).arrAt 2 cfg2.N = rowsTimes (V c main_v60) (V c main_arg7) :=
  (dat2 (F := Ideal) V c).arrAt_eq_of_cover 2 (rowsTimes (V c main_v60) (V c main_arg7)) (fun t _ => flushed2 V c t) covered2

end Region2Array

end Cert.Gcn.Regions

end
-- ==== Proof.RegionNorm.lean ====
/-
  The normalisation region's output array as one function of its input arrays.

  The kernel of region 1 takes rows 2000 t ... 2000 t + 1999 of the features h and four 1 x 64 rows (gamma, beta, mu,
  inv), lays each row along the 2000 rows of the block, and leaves max((gamma * (h - mu)) * inv + beta, 0) entry by
  entry. The specification lays the four length-64 vectors along all 100000 rows; both read the vector at the
  entry's column. The fifty blocks tile the rows, so the output array is the specification's.
-/
import proofs.«182157_j43671227465977_1_alg».proof.Proof.Gen.KernelIdeal.Frame
import proofs.«182157_j43671227465977_1_alg».proof.Proof.Spec
import Idealize.ShloMosaic.Lib.Pipeline.Value
import Idealize.ShloMosaic.Lib.ValueLayout

noncomputable section

namespace Cert.Gcn.Regions

open Idealize.ShloMosaic Idealize.ShloMosaic.TcCoe Idealize.SL.Sem Cert.KernelIdeal Cert.KernelIdeal.Gen Cert.Gcn
open Idealize.ShloMosaic.ValueIdx
open Idealize.ShloMosaic.Pipeline (Dat)

/-- The zero offsets of a whole-buffer access, as a constant function. -/
theorem zeroOffsetsNorm : (![0, 0] : Fin 2 → Nat) = fun _ => 0 := funext fun a => by fin_cases a <;> rfl

/-! ## The specification at an entry -/

/-- A length-64 vector laid along the rows reads, at (r, q), the vector at q. -/
theorem alongRows_apply (v : FVec Ideal S64 .f32) (i : S100000x64.Idx) : alongRows v i = v (ix1 (i 1)) := by
  unfold alongRows
  refine (broadcastInDim_apply _ _ _ i (ix2 (0 : Fin 1) (i 1)) fun a => ?_).trans
    (broadcastInDim_apply _ _ v (ix2 (0 : Fin 1) (i 1)) (ix1 (i 1)) fun a => ?_)
  · match a with
    | ⟨0, _⟩ => rfl
    | ⟨1, _⟩ => rfl
  · match a with
    | ⟨0, _⟩ => rfl

/-- The specification, entry by entry. -/
theorem normRelu_apply (h : FVec Ideal S100000x64 .f32) (mu inv gamma beta : FVec Ideal S64 .f32) (i : S100000x64.Idx) :
    normRelu h mu inv gamma beta i
      = max ((gamma (ix1 (i 1)) * (h i - mu (ix1 (i 1)))) * inv (ix1 (i 1)) + beta (ix1 (i 1)))
          (Ideal.ofBits .f32 0x00000000#32) := by
  unfold normRelu
  rw [maximumf_apply, addf_apply, mulf_apply, mulf_apply, subf_apply, alongRows_apply, alongRows_apply, alongRows_apply,
    alongRows_apply]
  refine congrArg _ ?_
  exact broadcastInDim_apply _ _ _ i ix0 fun a => a.elim0

/-! ## One block -/

/-- The kernel's block, entry by entry: each 1 x 64 row read at the entry's column. -/
theorem normBlock_apply (x0 : Vec Ideal S2000x64 .f32) (g b m n : Vec Ideal S1x64 .f32) (p : Fin 2000) (q : Fin 64) :
    k1_pay1 x0 g b m n (ix2 p q)
      = max ((g (ix2 (0 : Fin 1) q) * (x0 (ix2 p q) - m (ix2 (0 : Fin 1) q))) * n (ix2 (0 : Fin 1) q) + b (ix2 (0 : Fin 1) q))
          (Ideal.ofBits .f32 0x00000000#32) := by
  unfold k1_pay1
  simp only [shapeCast_self]
  show max ((broadcastTo S2000x64 g broadcasts_S1x64_S2000x64 (ix2 p q)
        * (x0 (ix2 p q) - broadcastTo S2000x64 m broadcasts_S1x64_S2000x64 (ix2 p q)))
        * broadcastTo S2000x64 n broadcasts_S1x64_S2000x64 (ix2 p q)
      + broadcastTo S2000x64 b broadcasts_S1x64_S2000x64 (ix2 p q)) (Ideal.ofBits .f32 0x00000000#32) = _
  rw [broadcastTo_1b_ab_apply g, broadcastTo_1b_ab_apply m, broadcastTo_1b_ab_apply n, broadcastTo_1b_ab_apply b]

/-! ## Region 1 -/

/-- The printed index maps over the fifty points: the features' and the output's block index is the point on the rows and
    zero on the columns, each row's is zero. -/
theorem indexMaps1 : ∀ t : Fin cfg1.N, (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

section Region1
variable (V : (c : Dev nD) → (b : Ref sig .tc) → Buf (Elt Ideal) ((c : Thread nD τ).loc b)) (c : Dev nD)

/-- The features' block at point t is rows 2000 t ... 2000 t + 1999 of the array. -/
theorem featBlock1 (t : Fin cfg1.N) (x : S2000x64.Idx) (i : S100000x64.Idx)
    (h0 : (i 0).val = 2000 * t.val + (x 0).val) (h1 : (i 1).val = (x 1).val) :
    (iblk1 (F := Ideal) V c 0 t : Vec Ideal S2000x64 .f32) x = (V c main_v48 : S100000x64.Idx → Elt Ideal .f32) i := by
  obtain ⟨e0, e1⟩ := (indexMaps1 t).1
  unfold iblk1
  rw [View.read_apply]
  show V c main_v48 _ = V c main_v48 _
  refine congrArg _ (funext fun a => Fin.ext ?_)
  match a with
  | ⟨0, _⟩ => show win1_0.index t (0 : Fin 2) * 2000 + 1 * (x 0).val = (i 0).val; omega
  | ⟨1, _⟩ => show win1_0.index t (1 : Fin 2) * 64 + 1 * (x 1).val = (i 1).val; omega

/-- The scale row's block at every point is the whole 1 x 64 row. -/
theorem rowBlock1_1 (t : Fin cfg1.N) (x : S1x64.Idx) (i : S1x64.Idx)
    (h0 : (i 0).val = (x 0).val) (h1 : (i 1).val = (x 1).val) :
    (iblk1 (F := Ideal) V c 1 t : Vec Ideal S1x64 .f32) x = (V c main_v56 : S1x64.Idx → Elt Ideal .f32) i := by
  obtain ⟨e0, e1⟩ := (indexMaps1 t).2.1
  unfold iblk1
  rw [View.read_apply]
  show V c main_v56 _ = V c main_v56 _
  refine congrArg _ (funext fun a => Fin.ext ?_)
  match a with
  | ⟨0, _⟩ => show win1_1.index t (0 : Fin 2) * 1 + 1 * (x 0).val = (i 0).val; omega
  | ⟨1, _⟩ => show win1_1.index t (1 : Fin 2) * 64 + 1 * (x 1).val = (i 1).val; omega

/-- The shift row's block at every point is the whole 1 x 64 row. -/
theorem rowBlock1_2 (t : Fin cfg1.N) (x : S1x64.Idx) (i : S1x64.Idx)
    (h0 : (i 0).val = (x 0).val) (h1 : (i 1).val = (x 1).val) :
    (iblk1 (F := Ideal) V c 2 t : Vec Ideal S1x64 .f32) x = (V c main_v57 : S1x64.Idx → Elt Ideal .f32) i := by
  obtain ⟨e0, e1⟩ := (indexMaps1 t).2.2.1
  unfold iblk1
  rw [View.read_apply]
  show V c main_v57 _ = V c main_v57 _
  refine congrArg _ (funext fun a => Fin.ext ?_)
  match a with
  | ⟨0, _⟩ => show win1_2.index t (0 : Fin 2) * 1 + 1 * (x 0).val = (i 0).val; omega
  | ⟨1, _⟩ => show win1_2.index t (1 : Fin 2) * 64 + 1 * (x 1).val = (i 1).val; omega

/-- The mean row's block at every point is the whole 1 x 64 row. -/
theorem rowBlock1_3 (t : Fin cfg1.N) (x : S1x64.Idx) (i : S1x64.Idx)
    (h0 : (i 0).val = (x 0).val) (h1 : (i 1).val = (x 1).val) :
    (iblk1 (F := Ideal) V c 3 t : Vec Ideal S1x64 .f32) x = (V c main_v58 : S1x64.Idx → Elt Ideal .f32) i := by
  obtain ⟨e0, e1⟩ := (indexMaps1 t).2.2.2.1
  unfold iblk1
  rw [View.read_apply]
  show V c main_v58 _ = V c main_v58 _
  refine congrArg _ (funext fun a => Fin.ext ?_)
  match a with
  | ⟨0, _⟩ => show win1_3.index t (0 : Fin 2) * 1 + 1 * (x 0).val = (i 0).val; omega
  | ⟨1, _⟩ => show win1_3.index t (1 : Fin 2) * 64 + 1 * (x 1).val = (i 1).val; omega

/-- The inverse deviation row's block at every point is the whole 1 x 64 row. -/
theorem rowBlock1_4 (t : Fin cfg1.N) (x : S1x64.Idx) (i : S1x64.Idx)
    (h0 : (i 0).val = (x 0).val) (h1 : (i 1).val = (x 1).val) :
    (iblk1 (F := Ideal) V c 4 t : Vec Ideal S1x64 .f32) x = (V c main_v59 : S1x64.Idx → Elt Ideal .f32) i := by
  obtain ⟨e0, e1⟩ := (indexMaps1 t).2.2.2.2.1
  unfold iblk1
  rw [View.read_apply]
  show V c main_v59 _ = V c main_v59 _
  refine congrArg _ (funext fun a => Fin.ext ?_)
  match a with
  | ⟨0, _⟩ => show win1_4.index t (0 : Fin 2) * 1 + 1 * (x 0).val = (i 0).val; omega
  | ⟨1, _⟩ => show win1_4.index t (1 : Fin 2) * 64 + 1 * (x 1).val = (i 1).val; omega

/-- A length-64 vector cast to a 1 x 64 row reads, at (0, q), the vector at q. -/
theorem rowOf_apply (v : FVec Ideal S64 .f32) (q : Fin 64) :
    (shapeCast S1x64 v Facts₀.shapeCasts_S64_S1x64 : S1x64.Idx → Elt Ideal .f32) (ix2 (0 : Fin 1) q) = v (ix1 q) :=
  shapeCast_a_1a_apply v _ 0 q

/-- What point t writes back is block t of the specification's array. -/
theorem flushed1 (mu inv gamma beta : FVec Ideal S64 .f32)
    (hg : V c main_v56 = shapeCast S1x64 gamma Facts₀.shapeCasts_S64_S1x64) (hb : V c main_v57 = shapeCast S1x64 beta Facts₀.shapeCasts_S64_S1x64)
    (hmu : V c main_v58 = shapeCast S1x64 mu Facts₀.shapeCasts_S64_S1x64) (hinv : V c main_v59 = shapeCast S1x64 inv Facts₀.shapeCasts_S64_S1x64)
    (t : Fin cfg1.N) :
    (dat1 (F := Ideal) V c).flushed 5 t
      = ((cfg1.win 5).blk t).view.read (Elt Ideal) (normRelu (V c main_v48) mu inv gamma beta) := by
  show (cfg1.win 5).cut (grid1.coords t) ((dat1 V c).after 5 t) = _
  rw [after1_5]
  unfold out1_5
  rw [View.canon_unit_zero zeroOffsetsNorm]
  simp only [View.ld_unit_zero (S := S2000x64) zeroOffsetsNorm, View.ld_unit_zero (S := S1x64) zeroOffsetsNorm]
  obtain ⟨e0, e1⟩ := (indexMaps1 t).2.2.2.2.2
  funext j
  show k1_pay1 (iblk1 V c 0 t) (iblk1 V c 1 t) (iblk1 V c 2 t) (iblk1 V c 3 t) (iblk1 V c 4 t) j
    = normRelu (V c main_v48) mu inv gamma beta (((cfg1.win 5).blk t).view.emb j)
  have r0 : ((((cfg1.win 5).blk t).view.emb j) 0).val = 2000 * t.val + (j 0).val := by
    show win1_5.index t (0 : Fin 2) * 2000 + 1 * (j 0).val = _; omega
  have r1 : ((((cfg1.win 5).blk t).view.emb j) 1).val = (j 1).val := by
    show win1_5.index t (1 : Fin 2) * 64 + 1 * (j 1).val = _; omega
  have q1 : (((cfg1.win 5).blk t).view.emb j) 1 = (j 1 : Fin 64) := Fin.ext r1
  refine ((congrArg (k1_pay1 (iblk1 V c 0 t) (iblk1 V c 1 t) (iblk1 V c 2 t) (iblk1 V c 3 t) (iblk1 V c 4 t)) (eq_ix2 j)).trans
    (normBlock_apply _ _ _ _ _ (j 0) (j 1))).trans ?_
  rw [normRelu_apply, q1,
    featBlock1 V c t (ix2 (j 0) (j 1)) (((cfg1.win 5).blk t).view.emb j) r0 r1,
    rowBlock1_1 V c t (ix2 (0 : Fin 1) (j 1)) (ix2 (0 : Fin 1) (j 1)) rfl rfl,
    rowBlock1_2 V c t (ix2 (0 : Fin 1) (j 1)) (ix2 (0 : Fin 1) (j 1)) rfl rfl,
    rowBlock1_3 V c t (ix2 (0 : Fin 1) (j 1)) (ix2 (0 : Fin 1) (j 1)) rfl rfl,
    rowBlock1_4 V c t (ix2 (0 : Fin 1) (j 1)) (ix2 (0 : Fin 1) (j 1)) rfl rfl,
    hg, hb, hmu, hinv, rowOf_apply gamma (j 1), rowOf_apply beta (j 1), rowOf_apply mu (j 1), rowOf_apply inv (j 1)]

end Region1

section Region1Array
variable (V : (c : Dev nD) → (b : Ref sig .tc) → Buf (Elt Ideal) ((c : Thread nD τ).loc b)) (c : Dev nD)

/-- An index of the output array is in point t's block iff each coordinate is in the block's range on its axis. -/
theorem mem_outBlock1 (t : Fin cfg1.N) (i : S100000x64.Idx) :
    i ∈ ((cfg1.win 5).blk t).view.set
      ↔ ∀ a : Fin 2, win1_5.index t a * S2000x64.size a ≤ (i a).val ∧ (i a).val < win1_5.index t a * S2000x64.size a + S2000x64.size a := by
  show i ∈ ((View.whole main_v60).slice (win1_5.rect t)).set ↔ _
  rw [View.set_slice_whole, Rect.mem_set_unit]
  exact Iff.rfl

/-- Row r of the output is in the block of point r / 2000, which writes back. -/
theorem covered1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 50 := N_1
  have ht : (i 0).val / 2000 < cfg1.N := by show (i 0).val / 2000 < grid1.N; omega
  obtain ⟨e0, e1⟩ := (indexMaps1 ⟨(i 0).val / 2000, ht⟩).2.2.2.2.2
  refine ⟨⟨(i 0).val / 2000, ht⟩, flush1_5 _, ?_⟩
  rw [mem_outBlock1]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 64 ≤ (i 1).val
      ∧ (i 1).val < win1_5.index ⟨(i 0).val / 2000, ht⟩ (1 : Fin 2) * 64 + 64
    rw [e1]; omega

/-- REGION 1: when its four 1 x 64 rows are the vectors gamma, beta, mu, inv, its output array ends holding
    max((gamma * (h - mu)) * inv + beta, 0) of the features h, the vectors laid along every row. -/
theorem region1_value (mu inv gamma beta : FVec Ideal S64 .f32)
    (hg : V c main_v56 = shapeCast S1x64 gamma Facts₀.shapeCasts_S64_S1x64) (hb : V c main_v57 = shapeCast S1x64 beta Facts₀.shapeCasts_S64_S1x64)
    (hmu : V c main_v58 = shapeCast S1x64 mu Facts₀.shapeCasts_S64_S1x64) (hinv : V c main_v59 = shapeCast S1x64 inv Facts₀.shapeCasts_S64_S1x64) :
    (dat1 (F := Ideal) V c).arrAt 5 cfg1.N = normRelu (V c main_v48) mu inv gamma beta :=
  Dat.arrAt_eq_of_cover (dat1 (F := Ideal) V c) 5 _ (fun t _ => flushed1 V c mu inv gamma beta hg hb hmu hinv t) covered1

end Region1Array

end Cert.Gcn.Regions

end
-- ==== Proof.KGlue.lean ====
/-
  The kernel program's result is the network function of its arguments.

  The contents at the twelve segment boundaries, followed from the launch to the return at the few buffers that
  matter: the edges' sources and destinations (computed before the first region and read by both layers), the first
  region's product (rows of the node features times the first weight), the first layer's output and its column
  statistics (the four row vectors the second region reads), the second region's normalised, rectified features, the
  third region's product with the second weight, and the second layer on it. A region changes only its own arrays; a
  stretch of host operations only the buffers it writes.
-/
import proofs.«182157_j43671227465977_1_alg».proof.Proof.KRun
import proofs.«182157_j43671227465977_1_alg».proof.Proof.KValue
import proofs.«182157_j43671227465977_1_alg».proof.Proof.RegionMatmul
import proofs.«182157_j43671227465977_1_alg».proof.Proof.RegionNorm

set_option maxRecDepth 16384

noncomputable section

namespace Cert.KernelIdeal.GcnRun

open Idealize.ShloMosaic Idealize.ShloMosaic.TcCoe Idealize.SL.Sem
open Cert.KernelIdeal Cert.KernelIdeal.Gen Cert.KernelIdeal.Stretches Cert.Gcn Cert.Gcn.Regions

variable (m : (ℓ : Loc nD τ sig) → Buf (Elt Ideal) ℓ) (ρ : Dev nD → PrngReg) (c : Dev nD)

/-- Before the first region: the argument arrays as launched, and the edges' sources and destinations. -/
theorem atRegion0 :
    (W1 m ρ c (Proc.devRef .tc main_arg0) = m ((c : Thread nD τ).loc main_arg0)
      ∧ W1 m ρ c (Proc.devRef .tc main_arg1) = m ((c : Thread nD τ).loc main_arg1)
      ∧ W1 m ρ c (Proc.devRef .tc main_arg2) = m ((c : Thread nD τ).loc main_arg2)
      ∧ W1 m ρ c (Proc.devRef .tc main_arg3) = m ((c : Thread nD τ).loc main_arg3)
      ∧ W1 m ρ c (Proc.devRef .tc main_arg4) = m ((c : Thread nD τ).loc main_arg4)
      ∧ W1 m ρ c (Proc.devRef .tc main_arg5) = m ((c : Thread nD τ).loc main_arg5)
      ∧ W1 m ρ c (Proc.devRef .tc main_arg6) = m ((c : Thread nD τ).loc main_arg6)
      ∧ W1 m ρ c (Proc.devRef .tc main_arg7) = m ((c : Thread nD τ).loc main_arg7)
      ∧ W1 m ρ c (Proc.devRef .tc main_arg8) = m ((c : Thread nD τ).loc main_arg8))
    ∧ W1 m ρ c (Proc.devRef .tc main_v1) = edgeSrc (m ((c : Thread nD τ).loc main_arg1))
    ∧ W1 m ρ c (Proc.devRef .tc main_v3) = edgeDst (m ((c : Thread nD τ).loc main_arg1)) :=
  ⟨pre_keep (F := Ideal) (W0 m ρ c), pre_src (F := Ideal) (W0 m ρ c), pre_dst (F := Ideal) (W0 m ρ c)⟩

/-- After the first region: its product, and what it leaves in place. -/
theorem afterRegion0 :
    W2 m ρ c (Proc.devRef .tc main_v4) = rowsTimes (m ((c : Thread nD τ).loc main_arg0)) (m ((c : Thread nD τ).loc main_arg3))
    ∧ W2 m ρ c (Proc.devRef .tc main_v1) = edgeSrc (m ((c : Thread nD τ).loc main_arg1))
    ∧ W2 m ρ c (Proc.devRef .tc main_v3) = edgeDst (m ((c : Thread nD τ).loc main_arg1))
    ∧ W2 m ρ c (Proc.devRef .tc main_arg2) = m ((c : Thread nD τ).loc main_arg2)
    ∧ W2 m ρ c (Proc.devRef .tc main_arg4) = m ((c : Thread nD τ).loc main_arg4)
    ∧ W2 m ρ c (Proc.devRef .tc main_arg5) = m ((c : Thread nD τ).loc main_arg5)
    ∧ W2 m ρ c (Proc.devRef .tc main_arg6) = m ((c : Thread nD τ).loc main_arg6)
    ∧ W2 m ρ c (Proc.devRef .tc main_arg7) = m ((c : Thread nD τ).loc main_arg7)
    ∧ W2 m ρ c (Proc.devRef .tc main_arg8) = m ((c : Thread nD τ).loc main_arg8) := by
  obtain ⟨⟨a0, a1, a2, a3, a4, a5, a6, a7, a8⟩, s1, d1⟩ := atRegion0 m ρ c
  refine ⟨(W2_arr m ρ c 2).trans ((region0_value (V1 m ρ) c).trans ?_),
    (W2_of_ne m ρ c main_v1 (by decide)).trans s1, (W2_of_ne m ρ c main_v3 (by decide)).trans d1,
    (W2_of_ne m ρ c main_arg2 (by decide)).trans a2, (W2_of_ne m ρ c main_arg4 (by decide)).trans a4,
    (W2_of_ne m ρ c main_arg5 (by decide)).trans a5, (W2_of_ne m ρ c main_arg6 (by decide)).trans a6,
    (W2_of_ne m ρ c main_arg7 (by decide)).trans a7, (W2_of_ne m ρ c main_arg8 (by decide)).trans a8⟩
  rw [show V1 m ρ c main_arg0 = _ from a0, show V1 m ρ c main_arg3 = _ from a3]

/-- Before the second region: the first layer's output, the four row vectors, and what the stretch leaves in place. -/
theorem atRegion1 :
    W7 m ρ c (Proc.devRef .tc main_v48) = (hidden (m ((c : Thread nD τ).loc main_arg0)) (m ((c : Thread nD τ).loc main_arg1)) (m ((c : Thread nD τ).loc main_arg2)) (m ((c : Thread nD τ).loc main_arg3)) (m ((c : Thread nD τ).loc main_arg4)))
    ∧ W7 m ρ c (Proc.devRef .tc main_v56) = shapeCast S1x64 (m ((c : Thread nD τ).loc main_arg5)) Facts₀.shapeCasts_S64_S1x64
    ∧ W7 m ρ c (Proc.devRef .tc main_v57) = shapeCast S1x64 (m ((c : Thread nD τ).loc main_arg6)) Facts₀.shapeCasts_S64_S1x64
    ∧ W7 m ρ c (Proc.devRef .tc main_v58) = shapeCast S1x64 (colMean (hidden (m ((c : Thread nD τ).loc main_arg0)) (m ((c : Thread nD τ).loc main_arg1)) (m ((c : Thread nD τ).loc main_arg2)) (m ((c : Thread nD τ).loc main_arg3)) (m ((c : Thread nD τ).loc main_arg4)))) Facts₀.shapeCasts_S64_S1x64
    ∧ W7 m ρ c (Proc.devRef .tc main_v59) = shapeCast S1x64 (colInvStd (hidden (m ((c : Thread nD τ).loc main_arg0)) (m ((c : Thread nD τ).loc main_arg1)) (m ((c : Thread nD τ).loc main_arg2)) (m ((c : Thread nD τ).loc main_arg3)) (m ((c : Thread nD τ).loc main_arg4)))) Facts₀.shapeCasts_S64_S1x64
    ∧ W7 m ρ c (Proc.devRef .tc main_v1) = edgeSrc (m ((c : Thread nD τ).loc main_arg1))
    ∧ W7 m ρ c (Proc.devRef .tc main_v3) = edgeDst (m ((c : Thread nD τ).loc main_arg1))
    ∧ W7 m ρ c (Proc.devRef .tc main_arg2) = m ((c : Thread nD τ).loc main_arg2)
    ∧ W7 m ρ c (Proc.devRef .tc main_arg7) = m ((c : Thread nD τ).loc main_arg7)
    ∧ W7 m ρ c (Proc.devRef .tc main_arg8) = m ((c : Thread nD τ).loc main_arg8) := by
  obtain ⟨h4, s2, d2, e2, b2, g2, be2, w2, bb2⟩ := afterRegion0 m ρ c
  obtain ⟨ks, kd, ke, kw, kb⟩ := mid_keep (F := Ideal) (W2 m ρ c)
  refine ⟨(mid_hidden (F := Ideal) (W2 m ρ c)).trans ?_, (mid_gamma (F := Ideal) (W2 m ρ c)).trans ?_,
    (mid_beta (F := Ideal) (W2 m ρ c)).trans ?_, (mid_mean (F := Ideal) (W2 m ρ c)).trans ?_,
    (mid_invStd (F := Ideal) (W2 m ρ c)).trans ?_, ks.trans s2, kd.trans d2, ke.trans e2, kw.trans w2, kb.trans bb2⟩
  · rw [h4, s2, d2, e2, b2]; rfl
  · rw [g2]
  · rw [be2]
  · rw [h4, s2, d2, e2, b2]; rfl
  · rw [h4, s2, d2, e2, b2]; rfl

/-- After the second region: the normalised, rectified features, and what it leaves in place. -/
theorem afterRegion1 :
    W8 m ρ c (Proc.devRef .tc main_v60)
      = normRelu (hidden (m ((c : Thread nD τ).loc main_arg0)) (m ((c : Thread nD τ).loc main_arg1)) (m ((c : Thread nD τ).loc main_arg2)) (m ((c : Thread nD τ).loc main_arg3)) (m ((c : Thread nD τ).loc main_arg4))) (colMean (hidden (m ((c : Thread nD τ).loc main_arg0)) (m ((c : Thread nD τ).loc main_arg1)) (m ((c : Thread nD τ).loc main_arg2)) (m ((c : Thread nD τ).loc main_arg3)) (m ((c : Thread nD τ).loc main_arg4)))) (colInvStd (hidden (m ((c : Thread nD τ).loc main_arg0)) (m ((c : Thread nD τ).loc main_arg1)) (m ((c : Thread nD τ).loc main_arg2)) (m ((c : Thread nD τ).loc main_arg3)) (m ((c : Thread nD τ).loc main_arg4)))) (m ((c : Thread nD τ).loc main_arg5)) (m ((c : Thread nD τ).loc main_arg6))
    ∧ W8 m ρ c (Proc.devRef .tc main_v1) = edgeSrc (m ((c : Thread nD τ).loc main_arg1))
    ∧ W8 m ρ c (Proc.devRef .tc main_v3) = edgeDst (m ((c : Thread nD τ).loc main_arg1))
    ∧ W8 m ρ c (Proc.devRef .tc main_arg2) = m ((c : Thread nD τ).loc main_arg2)
    ∧ W8 m ρ c (Proc.devRef .tc main_arg7) = m ((c : Thread nD τ).loc main_arg7)
    ∧ W8 m ρ c (Proc.devRef .tc main_arg8) = m ((c : Thread nD τ).loc main_arg8) := by
  obtain ⟨h48, g7, be7, mu7, inv7, s7, d7, e7, w7, bb7⟩ := atRegion1 m ρ c
  refine ⟨(W8_arr m ρ c 5).trans ((region1_value (V7 m ρ) c _ _ _ _ g7 be7 mu7 inv7).trans ?_),
    (W8_of_ne m ρ c main_v1 (by decide)).trans s7, (W8_of_ne m ρ c main_v3 (by decide)).trans d7,
    (W8_of_ne m ρ c main_arg2 (by decide)).trans e7, (W8_of_ne m ρ c main_arg7 (by decide)).trans w7,
    (W8_of_ne m ρ c main_arg8 (by decide)).trans bb7⟩
  rw [show V7 m ρ c main_v48 = _ from h48]

/-- After the third region: the product with the second weight, and what it leaves in place. -/
theorem afterRegion2 :
    W9 m ρ c (Proc.devRef .tc main_v61)
      = rowsTimes (normRelu (hidden (m ((c : Thread nD τ).loc main_arg0)) (m ((c : Thread nD τ).loc main_arg1)) (m ((c : Thread nD τ).loc main_arg2)) (m ((c : Thread nD τ).loc main_arg3)) (m ((c : Thread nD τ).loc main_arg4))) (colMean (hidden (m ((c : Thread nD τ).loc main_arg0)) (m ((c : Thread nD τ).loc main_arg1)) (m ((c : Thread nD τ).loc main_arg2)) (m ((c : Thread nD τ).loc main_arg3)) (m ((c : Thread nD τ).loc main_arg4)))) (colInvStd (hidden (m ((c : Thread nD τ).loc main_arg0)) (m ((c : Thread nD τ).loc main_arg1)) (m ((c : Thread nD τ).loc main_arg2)) (m ((c : Thread nD τ).loc main_arg3)) (m ((c : Thread nD τ).loc main_arg4)))) (m ((c : Thread nD τ).loc main_arg5)) (m ((c : Thread nD τ).loc main_arg6))) (m ((c : Thread nD τ).loc main_arg7))
    ∧ W9 m ρ c (Proc.devRef .tc main_v1) = edgeSrc (m ((c : Thread nD τ).loc main_arg1))
    ∧ W9 m ρ c (Proc.devRef .tc main_v3) = edgeDst (m ((c : Thread nD τ).loc main_arg1))
    ∧ W9 m ρ c (Proc.devRef .tc main_arg2) = m ((c : Thread nD τ).loc main_arg2)
    ∧ W9 m ρ c (Proc.devRef .tc main_arg8) = m ((c : Thread nD τ).loc main_arg8) := by
  obtain ⟨h60, s8, d8, e8, w8, bb8⟩ := afterRegion1 m ρ c
  refine ⟨(W9_arr m ρ c 2).trans ((region2_value (V8 m ρ) c).trans ?_),
    (W9_of_ne m ρ c main_v1 (by decide)).trans s8, (W9_of_ne m ρ c main_v3 (by decide)).trans d8,
    (W9_of_ne m ρ c main_arg2 (by decide)).trans e8, (W9_of_ne m ρ c main_arg8 (by decide)).trans bb8⟩
  rw [show V8 m ρ c main_v60 = _ from h60, show V8 m ρ c main_arg7 = _ from w8]

/-- At the return the result buffer holds the network function of the launch contents of the arguments. -/
theorem result_eq :
    W12 m ρ c (Proc.devRef .tc main_v105) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨h61, s9, d9, e9, bb9⟩ := afterRegion2 m ρ c
  refine (fin_out (F := Ideal) (W9 m ρ c)).trans ?_
  rw [h61, s9, d9, e9, bb9]
  rfl

end Cert.KernelIdeal.GcnRun

end
-- ==== Proof.RefOps.lean ====
/- The reference program's host operations in order, as lists: each entry is one statement of the printed @main
   (a called function's statements at its call, over the call's record of buffers). -/
import proofs.«182157_j43671227465977_1_alg».proof.Proof.Gen.ReferenceIdeal
import Idealize.ShloMosaic.Lib.StableHlo.Run

noncomputable section

namespace Cert.ReferenceIdeal.Ops

open Cert.ReferenceIdeal Cert.ReferenceIdeal.Facts₀ Idealize.ShloMosaic Idealize.ShloMosaic.TcCoe Idealize.SL.Sem Idealize.ShloMosaic.StableHlo

variable {F : FTy → Type} [FloatOps F]

/-- 62 operations. -/
abbrev opsLayer1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg3 main_v4 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_v5 (iotaInDim S100000 32 0),
    StableHlo.binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S100000 ![] bcast_S_S100000 : (⟨S_, .f32⟩ : BufTy).Contents (Elt F) → (⟨S100000, .f32⟩ : BufTy).Contents (Elt F)),
    StableHlo.binary main_arg2 main_v8 main_v9 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v7 main_v11 (broadcastInDim S1700000x1 ![0] bcast_S1700000_S1700000x1_0 : (⟨S1700000, .i32⟩ : BufTy).Contents (Elt F) → (⟨S1700000x1, .i32⟩ : BufTy).Contents (Elt F)),
    StableHlo.ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.unary main_v12 main_v15 (Host.rsqrt : (⟨S100000, .f32⟩ : BufTy).Contents (Elt F) → (⟨S100000, .f32⟩ : BufTy).Contents (Elt F)),
    StableHlo.nullary main_cst_2 (constant S_ .f32 0x00000000#32),
    StableHlo.TRef.unary ((.of main_cst_2) : StableHlo.TRef sig ⟨S_, .f32⟩) main_call0.v0 id,
    StableHlo.TRef.unary main_call0.v0 main_call0.v1 (broadcastInDim S100000 ![] bcast_S_S100000),
    StableHlo.TRef.ternary ((.of main_v14) : StableHlo.TRef sig ⟨S100000, .i1⟩) ((.of main_v15) : StableHlo.TRef sig ⟨S100000, .f32⟩) main_call0.v1 main_call0.v2 select,
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v6 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v19 (broadcastInDim S1700000 ![] bcast_S_S1700000 : (⟨S_, .i32⟩ : BufTy).Contents (Elt F) → (⟨S1700000, .i32⟩ : BufTy).Contents (Elt F)),
    StableHlo.binary main_v6 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v6 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v9 main_v24 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v25 (broadcastInDim S1700000 ![] bcast_S_S1700000 : (⟨S_, .i32⟩ : BufTy).Contents (Elt F) → (⟨S1700000, .i32⟩ : BufTy).Contents (Elt F)),
    StableHlo.binary main_v7 main_v25 main_v26 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v27 (broadcastInDim S1700000 ![] bcast_S_S1700000 : (⟨S_, .i32⟩ : BufTy).Contents (Elt F) → (⟨S1700000, .i32⟩ : BufTy).Contents (Elt F)),
    StableHlo.binary main_v7 main_v27 main_v28 (addi : (⟨S1700000, .i32⟩ : BufTy).Contents (Elt F) → (⟨S1700000, .i32⟩ : BufTy).Contents (Elt F) → (⟨S1700000, .i32⟩ : BufTy).Contents (Elt F)),
    StableHlo.ternary main_v26 main_v28 main_v7 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v29 main_v30 (broadcastInDim S1700000x1 ![0] bcast_S1700000_S1700000x1_0 : (⟨S1700000, .i32⟩ : BufTy).Contents (Elt F) → (⟨S1700000x1, .i32⟩ : BufTy).Contents (Elt F)),
    StableHlo.binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v31 main_v32 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v33 (broadcastInDim S1700000 ![] bcast_S_S1700000 : (⟨S_, .i32⟩ : BufTy).Contents (Elt F) → (⟨S1700000, .i32⟩ : BufTy).Contents (Elt F)),
    StableHlo.binary main_v6 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v35 (broadcastInDim S1700000 ![] bcast_S_S1700000 : (⟨S_, .i32⟩ : BufTy).Contents (Elt F) → (⟨S1700000, .i32⟩ : BufTy).Contents (Elt F)),
    StableHlo.binary main_v6 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v6 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v4 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v32 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v43 (broadcastInDim S100000x64 ![] bcast_S_S100000x64 : (⟨S_, .f32⟩ : BufTy).Contents (Elt F) → (⟨S100000x64, .f32⟩ : BufTy).Contents (Elt F)),
    StableHlo.unary main_v7 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg4 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v47 main_v48 (addf : (⟨S100000x64, .f32⟩ : BufTy).Contents (Elt F) → (⟨S100000x64, .f32⟩ : BufTy).Contents (Elt F) → (⟨S100000x64, .f32⟩ : BufTy).Contents (Elt F)) ]
/-- Each touches TensorCore references only. -/
theorem opsLayer1_sub : (opsLayer1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- 47 operations. -/
abbrev opsNorm : List (HloOp τ sig (Elt F)) :=
  [ StableHlo.nullary main_cst_9 (constant S_ .f32 0x00000000#32),
    StableHlo.binary main_v48 main_cst_9 main_v49 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_10 (constant S_ .f32 0x47C35000#32),
    StableHlo.unary main_cst_10 main_v50 (broadcastInDim S64 ![] bcast_S_S64 : (⟨S_, .f32⟩ : BufTy).Contents (Elt F) → (⟨S64, .f32⟩ : BufTy).Contents (Elt F)),
    StableHlo.binary main_v49 main_v50 main_v51 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call1.cst (constant S_ .f32 0x00000000#32),
    StableHlo.TRef.binary ((.of main_v48) : StableHlo.TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary ((.of main_v48) : StableHlo.TRef sig ⟨S100000x64, .f32⟩) main_call1.v4 main_call1.v5 subf,
    StableHlo.TRef.binary main_call1.v5 main_call1.v5 main_call1.v6 mulf,
    StableHlo.TRef.unary ((.of main_c_11) : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary (main_call1.cst_4 : StableHlo.TRef sig ⟨S_, .f32⟩) main_call1.call0.v0 id,
    StableHlo.TRef.unary main_call1.call0.v0 main_call1.call0.v1 (broadcastInDim S64 ![] bcast_S_S64),
    StableHlo.TRef.ternary (main_call1.v12 : StableHlo.TRef sig ⟨S_, .i1⟩) (main_call1.v11 : StableHlo.TRef sig ⟨S64, .f32⟩) main_call1.call0.v1 main_call1.call0.v2 (fun p a b => select (broadcastInDim S64 ![] bcast_S_S64 p) a b),
    StableHlo.unary main_v51 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v48 main_v54 main_v55 (subf : (⟨S100000x64, .f32⟩ : BufTy).Contents (Elt F) → (⟨S100000x64, .f32⟩ : BufTy).Contents (Elt F) → (⟨S100000x64, .f32⟩ : BufTy).Contents (Elt F)),
    StableHlo.unary main_arg5 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v55 main_v58 (mulf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v59 (broadcastInDim S64 ![] bcast_S_S64 : (⟨S_, .f32⟩ : BufTy).Contents (Elt F) → (⟨S64, .f32⟩ : BufTy).Contents (Elt F)),
    StableHlo.binary main_v52 main_v59 main_v60 (addf : (⟨S64, .f32⟩ : BufTy).Contents (Elt F) → (⟨S64, .f32⟩ : BufTy).Contents (Elt F) → (⟨S64, .f32⟩ : BufTy).Contents (Elt F)),
    StableHlo.unary main_v60 main_v61 (Host.rsqrt : (⟨S64, .f32⟩ : BufTy).Contents (Elt F) → (⟨S64, .f32⟩ : BufTy).Contents (Elt F)),
    StableHlo.unary main_v61 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v58 main_v63 main_v64 (mulf : (⟨S100000x64, .f32⟩ : BufTy).Contents (Elt F) → (⟨S100000x64, .f32⟩ : BufTy).Contents (Elt F) → (⟨S100000x64, .f32⟩ : BufTy).Contents (Elt F)),
    StableHlo.unary main_arg6 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v64 main_v66 main_v67 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary ((.of main_v67) : StableHlo.TRef sig ⟨S100000x64, .f32⟩) main_call2.v0 main_call2.v1 maximumf ]
/-- Each touches TensorCore references only. -/
theorem opsNorm_sub : (opsNorm : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- 58 operations. -/
abbrev opsLayer2 : List (HloOp τ sig (Elt F)) :=
  [ StableHlo.binary main_v68 main_arg7 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_v70 (iotaInDim S100000 32 0),
    StableHlo.binary main_v1 main_v70 main_v71 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v70 main_v72 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_13 (constant S_ .f32 0x3F800000#32),
    StableHlo.unary main_cst_13 main_v73 (broadcastInDim S100000 ![] bcast_S_S100000 : (⟨S_, .f32⟩ : BufTy).Contents (Elt F) → (⟨S100000, .f32⟩ : BufTy).Contents (Elt F)),
    StableHlo.binary main_arg2 main_v73 main_v74 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_14 (constant S_ .f32 0x00000000#32),
    StableHlo.unary main_cst_14 main_v75 (broadcastInDim S100000 ![] bcast_S_S100000 : (⟨S_, .f32⟩ : BufTy).Contents (Elt F) → (⟨S100000, .f32⟩ : BufTy).Contents (Elt F)),
    StableHlo.unary main_v72 main_v76 (broadcastInDim S1700000x1 ![0] bcast_S1700000_S1700000x1_0 : (⟨S1700000, .i32⟩ : BufTy).Contents (Elt F) → (⟨S1700000x1, .i32⟩ : BufTy).Contents (Elt F)),
    StableHlo.ternary main_v75 main_v76 main_v74 main_v77 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_15 (constant S_ .f32 0x00000000#32),
    StableHlo.unary main_cst_15 main_v78 (broadcastInDim S100000 ![] bcast_S_S100000 : (⟨S_, .f32⟩ : BufTy).Contents (Elt F) → (⟨S100000, .f32⟩ : BufTy).Contents (Elt F)),
    StableHlo.binary main_v77 main_v78 main_v79 (cmpf .ogt : (⟨S100000, .f32⟩ : BufTy).Contents (Elt F) → (⟨S100000, .f32⟩ : BufTy).Contents (Elt F) → (⟨S100000, .i1⟩ : BufTy).Contents (Elt F)),
    StableHlo.unary main_v77 main_v80 (Host.rsqrt : (⟨S100000, .f32⟩ : BufTy).Contents (Elt F) → (⟨S100000, .f32⟩ : BufTy).Contents (Elt F)),
    StableHlo.nullary main_cst_16 (constant S_ .f32 0x00000000#32),
    StableHlo.TRef.unary ((.of main_cst_16) : StableHlo.TRef sig ⟨S_, .f32⟩) main_call3.v0 id,
    StableHlo.TRef.unary main_call3.v0 main_call3.v1 (broadcastInDim S100000 ![] bcast_S_S100000),
    StableHlo.TRef.ternary ((.of main_v79) : StableHlo.TRef sig ⟨S100000, .i1⟩) ((.of main_v80) : StableHlo.TRef sig ⟨S100000, .f32⟩) main_call3.v1 main_call3.v2 select,
    StableHlo.nullary main_c_17 (constantI S_ 32 0#32),
    StableHlo.unary main_c_17 main_v82 (broadcastInDim S1700000 ![] bcast_S_S1700000 : (⟨S_, .i32⟩ : BufTy).Contents (Elt F) → (⟨S1700000, .i32⟩ : BufTy).Contents (Elt F)),
    StableHlo.binary main_v71 main_v82 main_v83 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v84 (broadcastInDim S1700000 ![] bcast_S_S1700000 : (⟨S_, .i32⟩ : BufTy).Contents (Elt F) → (⟨S1700000, .i32⟩ : BufTy).Contents (Elt F)),
    StableHlo.binary main_v71 main_v84 main_v85 (addi : (⟨S1700000, .i32⟩ : BufTy).Contents (Elt F) → (⟨S1700000, .i32⟩ : BufTy).Contents (Elt F) → (⟨S1700000, .i32⟩ : BufTy).Contents (Elt F)),
    StableHlo.ternary main_v83 main_v85 main_v71 main_v86 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v86 main_v87 (broadcastInDim S1700000x1 ![0] bcast_S1700000_S1700000x1_0 : (⟨S1700000, .i32⟩ : BufTy).Contents (Elt F) → (⟨S1700000x1, .i32⟩ : BufTy).Contents (Elt F)),
    StableHlo.binary main_v81 main_v87 main_v88 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v88 main_v74 main_v89 (mulf : (⟨S1700000, .f32⟩ : BufTy).Contents (Elt F) → (⟨S1700000, .f32⟩ : BufTy).Contents (Elt F) → (⟨S1700000, .f32⟩ : BufTy).Contents (Elt F)),
    StableHlo.nullary main_c_19 (constantI S_ 32 0#32),
    StableHlo.unary main_c_19 main_v90 (broadcastInDim S1700000 ![] bcast_S_S1700000 : (⟨S_, .i32⟩ : BufTy).Contents (Elt F) → (⟨S1700000, .i32⟩ : BufTy).Contents (Elt F)),
    StableHlo.binary main_v72 main_v90 main_v91 (cmpi .slt : (⟨S1700000, .i32⟩ : BufTy).Contents (Elt F) → (⟨S1700000, .i32⟩ : BufTy).Contents (Elt F) → (⟨S1700000, .i1⟩ : BufTy).Contents (Elt F)),
    StableHlo.nullary main_c_20 (constantI S_ 32 100000#32),
    StableHlo.unary main_c_20 main_v92 (broadcastInDim S1700000 ![] bcast_S_S1700000 : (⟨S_, .i32⟩ : BufTy).Contents (Elt F) → (⟨S1700000, .i32⟩ : BufTy).Contents (Elt F)),
    StableHlo.binary main_v72 main_v92 main_v93 (addi : (⟨S1700000, .i32⟩ : BufTy).Contents (Elt F) → (⟨S1700000, .i32⟩ : BufTy).Contents (Elt F) → (⟨S1700000, .i32⟩ : BufTy).Contents (Elt F)),
    StableHlo.ternary main_v91 main_v93 main_v72 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v94 main_v95 (broadcastInDim S1700000x1 ![0] bcast_S1700000_S1700000x1_0 : (⟨S1700000, .i32⟩ : BufTy).Contents (Elt F) → (⟨S1700000x1, .i32⟩ : BufTy).Contents (Elt F)),
    StableHlo.binary main_v81 main_v95 main_v96 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v89 main_v96 main_v97 (mulf : (⟨S1700000, .f32⟩ : BufTy).Contents (Elt F) → (⟨S1700000, .f32⟩ : BufTy).Contents (Elt F) → (⟨S1700000, .f32⟩ : BufTy).Contents (Elt F)),
    StableHlo.nullary main_c_21 (constantI S_ 32 0#32),
    StableHlo.unary main_c_21 main_v98 (broadcastInDim S1700000 ![] bcast_S_S1700000 : (⟨S_, .i32⟩ : BufTy).Contents (Elt F) → (⟨S1700000, .i32⟩ : BufTy).Contents (Elt F)),
    StableHlo.binary main_v71 main_v98 main_v99 (cmpi .slt : (⟨S1700000, .i32⟩ : BufTy).Contents (Elt F) → (⟨S1700000, .i32⟩ : BufTy).Contents (Elt F) → (⟨S1700000, .i1⟩ : BufTy).Contents (Elt F)),
    StableHlo.nullary main_c_22 (constantI S_ 32 100000#32),
    StableHlo.unary main_c_22 main_v100 (broadcastInDim S1700000 ![] bcast_S_S1700000 : (⟨S_, .i32⟩ : BufTy).Contents (Elt F) → (⟨S1700000, .i32⟩ : BufTy).Contents (Elt F)),
    StableHlo.binary main_v71 main_v100 main_v101 (addi : (⟨S1700000, .i32⟩ : BufTy).Contents (Elt F) → (⟨S1700000, .i32⟩ : BufTy).Contents (Elt F) → (⟨S1700000, .i32⟩ : BufTy).Contents (Elt F)),
    StableHlo.ternary main_v99 main_v101 main_v71 main_v102 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v102 main_v103 (broadcastInDim S1700000x1 ![0] bcast_S1700000_S1700000x1_0 : (⟨S1700000, .i32⟩ : BufTy).Contents (Elt F) → (⟨S1700000x1, .i32⟩ : BufTy).Contents (Elt F)),
    StableHlo.binary main_v69 main_v103 main_v104 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v97 main_v105 (broadcastInDim S1700000x1 ![0] bcast_S1700000_S1700000x1_0 : (⟨S1700000, .f32⟩ : BufTy).Contents (Elt F) → (⟨S1700000x1, .f32⟩ : BufTy).Contents (Elt F)),
    StableHlo.unary main_v105 main_v106 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v104 main_v106 main_v107 (mulf : (⟨S1700000x64, .f32⟩ : BufTy).Contents (Elt F) → (⟨S1700000x64, .f32⟩ : BufTy).Contents (Elt F) → (⟨S1700000x64, .f32⟩ : BufTy).Contents (Elt F)),
    StableHlo.nullary main_cst_23 (constant S_ .f32 0x00000000#32),
    StableHlo.unary main_cst_23 main_v108 (broadcastInDim S100000x64 ![] bcast_S_S100000x64 : (⟨S_, .f32⟩ : BufTy).Contents (Elt F) → (⟨S100000x64, .f32⟩ : BufTy).Contents (Elt F)),
    StableHlo.unary main_v72 main_v109 (broadcastInDim S1700000x1 ![0] bcast_S1700000_S1700000x1_0 : (⟨S1700000, .i32⟩ : BufTy).Contents (Elt F) → (⟨S1700000x1, .i32⟩ : BufTy).Contents (Elt F)),
    StableHlo.ternary main_v108 main_v109 main_v107 main_v110 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg8 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S100000x64 ![0, 1] bcast_S1x64_S100000x64_0_1 : (⟨S1x64, .f32⟩ : BufTy).Contents (Elt F) → (⟨S100000x64, .f32⟩ : BufTy).Contents (Elt F)),
    StableHlo.binary main_v110 main_v112 main_v113 (addf : (⟨S100000x64, .f32⟩ : BufTy).Contents (Elt F) → (⟨S100000x64, .f32⟩ : BufTy).Contents (Elt F) → (⟨S100000x64, .f32⟩ : BufTy).Contents (Elt F)) ]
/-- Each touches TensorCore references only. -/
theorem opsLayer2_sub : (opsLayer2 : List (HloOp τ sig (Elt F))).Forall fun op => op.bufs ⊆ StableHlo.tcRefs τ sig :=
  ⟨StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

end Cert.ReferenceIdeal.Ops

end
-- ==== Proof.RefRun.lean ====
/-
  The reference program's run read back.

  The reference is a straight line of host operations (the called functions' statements at their calls). Run in order
  from the launch memory it terminates, and every buffer ends at the fold of the operations over the launch contents;
  the fold is taken here in three consecutive stretches: the first layer (the edge lists, the weight product, the
  aggregation), the normalisation and rectifier, and the second layer.
-/
import proofs.«182157_j43671227465977_1_alg».proof.Proof.RefOps
import Idealize.ShloMosaic.Lib.Pipeline.Regions
import Idealize.ShloMosaic.Lib.Pipeline.Frame

noncomputable section

namespace Cert.ReferenceIdeal.Ops

open Cert.ReferenceIdeal Idealize.ShloMosaic Idealize.ShloMosaic.TcCoe Idealize.SL.Sem Idealize.ShloMosaic.StableHlo

variable {F : FTy → Type} [FloatOps F]

/-- All the operations, in order. -/
abbrev ops : List (HloOp τ sig (Elt F)) := opsLayer1 ++ (opsNorm ++ opsLayer2)

/-- The program is that straight line: both sides are one chain of the same steps once sequencing is reassociated,
    which the kernel's definitional check does. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsLayer1_sub op h, List.forall_iff_forall_mem.mp opsNorm_sub op h,
      List.forall_iff_forall_mem.mp opsLayer2_sub op h]

/-- No operation allocates a buffer. -/
theorem opsLayer1_fresh : (opsLayer1 : List (HloOp τ sig (Elt F))).Forall fun op => op.fresh = ∅ := by
  simp only [List.Forall]; repeat' constructor
theorem opsNorm_fresh : (opsNorm : List (HloOp τ sig (Elt F))).Forall fun op => op.fresh = ∅ := by
  simp only [List.Forall]; repeat' constructor
theorem opsLayer2_fresh : (opsLayer2 : List (HloOp τ sig (Elt F))).Forall fun op => op.fresh = ∅ := by
  simp only [List.Forall]; repeat' constructor

theorem ops_fresh : ∀ op ∈ (ops : List (HloOp τ sig (Elt F))), op.fresh = ∅ := fun op h => by
  simp only [ops, List.mem_append] at h
  rcases h with h | h | h
  exacts [List.forall_iff_forall_mem.mp opsLayer1_fresh op h, List.forall_iff_forall_mem.mp opsNorm_fresh op h,
    List.forall_iff_forall_mem.mp opsLayer2_fresh op h]

/-- On every device, from any memory with zero counters: every weakly fair execution terminates, and every buffer ends at
    the three stretches' folds, one after the other, over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after opsLayer2 (after opsNorm (after opsLayer1 (launchContents m c))) (Proc.devRef .tc b) :=
  (θ_run defs _ _).mono (fun _ h c b => by rw [h c b]; simp only [ops, Idealize.ShloMosaic.StableHlo.after_append])
    (run_seq scopedRefs_eq scopedSems_eq defs main (fun _ => ops) main_eq (fun _ => ops_sub) m ρ (fun _ => ops_fresh))

end Cert.ReferenceIdeal.Ops

end
-- ==== Proof.RefValue.lean ====
/-
  What the reference's three stretches of host operations compute, each as one function of the buffers it reads.

  The first stretch is one layer on the weight product of the node features; the second the column statistics, the
  normalisation and the rectifier; the third a layer on the second weight product. Each equation is the fold of the
  stretch's operations read at one buffer: every operation's function applied to its operands' contents, by unfolding.
-/
import proofs.«182157_j43671227465977_1_alg».proof.Proof.RefOps
import proofs.«182157_j43671227465977_1_alg».proof.Proof.Spec

set_option maxRecDepth 16384

noncomputable section

namespace Cert.ReferenceIdeal.Ops

open Cert.ReferenceIdeal Idealize.ShloMosaic Idealize.ShloMosaic.TcCoe Idealize.SL.Sem Idealize.ShloMosaic.StableHlo

variable {F : FTy → Type} [FloatOps F]

/-- The fold of a literal line read at a literal buffer: unfold the fold, then each operation's result decides by
    computation whether the buffer read is the one it writes. -/
local macro "read_fold" : tactic => `(tactic| (simp only [after_cons, after_nil]; rfl))

attribute [local irreducible] Host.scatterAdd Host.gather Host.reduceAdd concatenate

/-- The first layer's output. -/
theorem layer1_out (V : Valuation τ sig (Elt F)) :
    after opsLayer1 V (main_v48 : DevRef τ sig)
      = Cert.Gcn.aggregate
          (Host.dotGeneral dot_S100000x64_S64x64_S100000x64_1_0_0_1_n_n none (V (main_arg0 : DevRef τ sig)) (V (main_arg3 : DevRef τ sig)))
          (Cert.Gcn.edgeSrc (V (main_arg1 : DevRef τ sig))) (Cert.Gcn.edgeDst (V (main_arg1 : DevRef τ sig)))
          (V (main_arg2 : DevRef τ sig)) (V (main_arg4 : DevRef τ sig)) := by
  read_fold

/-- The edges' sources and destinations, kept for the second layer. -/
theorem layer1_src (V : Valuation τ sig (Elt F)) :
    after opsLayer1 V (main_v1 : DevRef τ sig) = Cert.Gcn.edgeSrc (V (main_arg1 : DevRef τ sig)) := by
  read_fold
theorem layer1_dst (V : Valuation τ sig (Elt F)) :
    after opsLayer1 V (main_v3 : DevRef τ sig) = Cert.Gcn.edgeDst (V (main_arg1 : DevRef τ sig)) := by
  read_fold

/-- The normalised, rectified features. -/
theorem norm_out (V : Valuation τ sig (Elt F)) :
    after opsNorm V (main_v68 : DevRef τ sig)
      = Cert.Gcn.normRelu (V (main_v48 : DevRef τ sig)) (Cert.Gcn.colMean (V (main_v48 : DevRef τ sig)))
          (Cert.Gcn.colInvStd (V (main_v48 : DevRef τ sig))) (V (main_arg5 : DevRef τ sig)) (V (main_arg6 : DevRef τ sig)) := by
  read_fold

/-- The second layer's output: the program's result. -/
theorem layer2_out (V : Valuation τ sig (Elt F)) :
    after opsLayer2 V (main_v113 : DevRef τ sig)
      = Cert.Gcn.aggregate
          (Host.dotGeneral dot_S100000x64_S64x64_S100000x64_1_0_0_1_n_n none (V (main_v68 : DevRef τ sig)) (V (main_arg7 : DevRef τ sig)))
          (V (main_v1 : DevRef τ sig)) (V (main_v3 : DevRef τ sig)) (V (main_arg2 : DevRef τ sig)) (V (main_arg8 : DevRef τ sig)) := by
  read_fold

/-- No stretch writes an argument array; the normalisation leaves the edge lists in place. -/
theorem layer1_keep (V : Valuation τ sig (Elt F)) :
    after opsLayer1 V (main_arg0 : DevRef τ sig) = V (main_arg0 : DevRef τ sig)
    ∧ after opsLayer1 V (main_arg1 : DevRef τ sig) = V (main_arg1 : DevRef τ sig)
    ∧ after opsLayer1 V (main_arg2 : DevRef τ sig) = V (main_arg2 : DevRef τ sig)
    ∧ after opsLayer1 V (main_arg3 : DevRef τ sig) = V (main_arg3 : DevRef τ sig)
    ∧ after opsLayer1 V (main_arg4 : DevRef τ sig) = V (main_arg4 : DevRef τ sig)
    ∧ after opsLayer1 V (main_arg5 : DevRef τ sig) = V (main_arg5 : DevRef τ sig)
    ∧ after opsLayer1 V (main_arg6 : DevRef τ sig) = V (main_arg6 : DevRef τ sig)
    ∧ after opsLayer1 V (main_arg7 : DevRef τ sig) = V (main_arg7 : DevRef τ sig)
    ∧ after opsLayer1 V (main_arg8 : DevRef τ sig) = V (main_arg8 : DevRef τ sig) := by
  simp only [after_cons, after_nil]
  exact ⟨rfl, rfl, rfl, rfl, rfl, rfl, rfl, rfl, rfl⟩

/-- The normalisation writes neither the edge lists nor an argument array. -/
theorem norm_keep (V : Valuation τ sig (Elt F)) :
    after opsNorm V (main_v1 : DevRef τ sig) = V (main_v1 : DevRef τ sig)
    ∧ after opsNorm V (main_v3 : DevRef τ sig) = V (main_v3 : DevRef τ sig)
    ∧ after opsNorm V (main_arg0 : DevRef τ sig) = V (main_arg0 : DevRef τ sig)
    ∧ after opsNorm V (main_arg1 : DevRef τ sig) = V (main_arg1 : DevRef τ sig)
    ∧ after opsNorm V (main_arg2 : DevRef τ sig) = V (main_arg2 : DevRef τ sig)
    ∧ after opsNorm V (main_arg3 : DevRef τ sig) = V (main_arg3 : DevRef τ sig)
    ∧ after opsNorm V (main_arg4 : DevRef τ sig) = V (main_arg4 : DevRef τ sig)
    ∧ after opsNorm V (main_arg5 : DevRef τ sig) = V (main_arg5 : DevRef τ sig)
    ∧ after opsNorm V (main_arg6 : DevRef τ sig) = V (main_arg6 : DevRef τ sig)
    ∧ after opsNorm V (main_arg7 : DevRef τ sig) = V (main_arg7 : DevRef τ sig)
    ∧ after opsNorm V (main_arg8 : DevRef τ sig) = V (main_arg8 : DevRef τ sig) := by
  simp only [after_cons, after_nil]
  exact ⟨rfl, rfl, rfl, rfl, rfl, rfl, rfl, rfl, rfl, rfl, rfl⟩

/-- The second layer writes no argument array. -/
theorem layer2_keep (V : Valuation τ sig (Elt F)) :
    after opsLayer2 V (main_arg0 : DevRef τ sig) = V (main_arg0 : DevRef τ sig)
    ∧ after opsLayer2 V (main_arg1 : DevRef τ sig) = V (main_arg1 : DevRef τ sig)
    ∧ after opsLayer2 V (main_arg2 : DevRef τ sig) = V (main_arg2 : DevRef τ sig)
    ∧ after opsLayer2 V (main_arg3 : DevRef τ sig) = V (main_arg3 : DevRef τ sig)
    ∧ after opsLayer2 V (main_arg4 : DevRef τ sig) = V (main_arg4 : DevRef τ sig)
    ∧ after opsLayer2 V (main_arg5 : DevRef τ sig) = V (main_arg5 : DevRef τ sig)
    ∧ after opsLayer2 V (main_arg6 : DevRef τ sig) = V (main_arg6 : DevRef τ sig)
    ∧ after opsLayer2 V (main_arg7 : DevRef τ sig) = V (main_arg7 : DevRef τ sig)
    ∧ after opsLayer2 V (main_arg8 : DevRef τ sig) = V (main_arg8 : DevRef τ sig) := by
  simp only [after_cons, after_nil]
  exact ⟨rfl, rfl, rfl, rfl, rfl, rfl, rfl, rfl, rfl⟩

end Cert.ReferenceIdeal.Ops

end
-- ==== Proof.RefResult.lean ====
/-
  The reference's result is the network function of its arguments.

  Reading the run's three folds at the result buffer, outermost first: the second layer on the product of the
  normalised features with the second weight; the normalised features from the first layer's output and its column
  statistics; the first layer on the product of the node features with the first weight. The host's dot_general at an
  entry (r, c) is the sum over k of a(r, k) * w(k, c) on the extended reals, which is the specification's product.
-/
import proofs.«182157_j43671227465977_1_alg».proof.Proof.RefRun
import proofs.«182157_j43671227465977_1_alg».proof.Proof.RefValue
import proofs.«182157_j43671227465977_1_alg».proof.Proof.LibMatmulRows

noncomputable section

namespace Cert.ReferenceIdeal.Ops

open Cert.ReferenceIdeal Idealize.ShloMosaic Idealize.ShloMosaic.TcCoe Idealize.SL.Sem Idealize.ShloMosaic.StableHlo

/-- The host's product of N x 64 rows with a 64 x 64 weight is the specification's, entry by entry. -/
theorem dot_eq (a : FVec Ideal S100000x64 .f32) (w : FVec Ideal S64x64 .f32) :
    Host.dotGeneral (F := Ideal) dot_S100000x64_S64x64_S100000x64_1_0_0_1_n_n none a w = Cert.Gcn.rowsTimes a w := by
  funext i
  exact Idealize.ShloMosaic.MatmulRows.dotGeneral_apply dot_S100000x64_S64x64_S100000x64_1_0_0_1_n_n none _ rfl rfl rfl rfl
    (fun _ _ => rfl) (fun _ _ => rfl) a w i

/-- The three folds read at the result buffer: the network function of the launch contents of the arguments. -/
theorem result_eq (L : Valuation τ sig (Elt Ideal)) :
    after opsLayer2 (after opsNorm (after opsLayer1 L)) (main_v113 : DevRef τ sig)
      = Cert.Gcn.network (L (main_arg0 : DevRef τ sig)) (L (main_arg1 : DevRef τ sig)) (L (main_arg2 : DevRef τ sig))
          (L (main_arg3 : DevRef τ sig)) (L (main_arg4 : DevRef τ sig)) (L (main_arg5 : DevRef τ sig)) (L (main_arg6 : DevRef τ sig))
          (L (main_arg7 : DevRef τ sig)) (L (main_arg8 : DevRef τ sig)) := by
  obtain ⟨-, -, k2, -, -, k5, k6, k7, k8⟩ := layer1_keep (F := Ideal) L
  obtain ⟨n1, n3, -, -, n2a, -, -, -, -, n7, n8⟩ := norm_keep (F := Ideal) (after opsLayer1 L)
  rw [layer2_out, norm_out, n1, n3, n2a, n7, n8, layer1_out, layer1_src, layer1_dst, k2, k5, k6, k7, k8, dot_eq, dot_eq]
  rfl

/-- No fold writes an argument array. -/
theorem args_eq (L : Valuation τ sig (Elt Ideal)) :
    after opsLayer2 (after opsNorm (after opsLayer1 L)) (main_arg0 : DevRef τ sig) = L (main_arg0 : DevRef τ sig)
    ∧ after opsLayer2 (after opsNorm (after opsLayer1 L)) (main_arg1 : DevRef τ sig) = L (main_arg1 : DevRef τ sig)
    ∧ after opsLayer2 (after opsNorm (after opsLayer1 L)) (main_arg2 : DevRef τ sig) = L (main_arg2 : DevRef τ sig)
    ∧ after opsLayer2 (after opsNorm (after opsLayer1 L)) (main_arg3 : DevRef τ sig) = L (main_arg3 : DevRef τ sig)
    ∧ after opsLayer2 (after opsNorm (after opsLayer1 L)) (main_arg4 : DevRef τ sig) = L (main_arg4 : DevRef τ sig)
    ∧ after opsLayer2 (after opsNorm (after opsLayer1 L)) (main_arg5 : DevRef τ sig) = L (main_arg5 : DevRef τ sig)
    ∧ after opsLayer2 (after opsNorm (after opsLayer1 L)) (main_arg6 : DevRef τ sig) = L (main_arg6 : DevRef τ sig)
    ∧ after opsLayer2 (after opsNorm (after opsLayer1 L)) (main_arg7 : DevRef τ sig) = L (main_arg7 : DevRef τ sig)
    ∧ after opsLayer2 (after opsNorm (after opsLayer1 L)) (main_arg8 : DevRef τ sig) = L (main_arg8 : DevRef τ sig) := by
  obtain ⟨a0, a1, a2, a3, a4, a5, a6, a7, a8⟩ := layer2_keep (F := Ideal) (after opsNorm (after opsLayer1 L))
  obtain ⟨-, -, b0, b1, b2, b3, b4, b5, b6, b7, b8⟩ := norm_keep (F := Ideal) (after opsLayer1 L)
  obtain ⟨c0, c1, c2, c3, c4, c5, c6, c7, c8⟩ := layer1_keep (F := Ideal) L
  exact ⟨a0.trans (b0.trans c0), a1.trans (b1.trans c1), a2.trans (b2.trans c2), a3.trans (b3.trans c3), a4.trans (b4.trans c4),
    a5.trans (b5.trans c5), a6.trans (b6.trans c6), a7.trans (b7.trans c7), a8.trans (b8.trans c8)⟩

/-- The reference's run: it terminates with the result buffer at the network function of the arguments, the arguments
    unchanged. -/
theorem run_network (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113)
        = Cert.Gcn.network (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
      obtain ⟨a0, a1, a2, a3, a4, a5, a6, a7, a8⟩ := args_eq (launchContents m c)
      exact ⟨(h c main_v113).trans (result_eq (launchContents m c)), (h c main_arg0).trans a0, (h c main_arg1).trans a1,
        (h c main_arg2).trans a2, (h c main_arg3).trans a3, (h c main_arg4).trans a4, (h c main_arg5).trans a5,
        (h c main_arg6).trans a6, (h c main_arg7).trans a7, (h c main_arg8).trans a8⟩)
    (run (F := Ideal) m ρ)

end Cert.ReferenceIdeal.Ops

end
-- ==== Proof.lean ====
/-
  The certificate: a two-layer graph convolution, its Pallas kernels against the plain reference.

  Both programs, read on the extended reals, compute ONE function of the nine argument arrays (Proof/Spec.lean's
  `network`): a layer is the weight product followed by the degree-normalised aggregation over the edges with self
  loops and the bias; between the layers the columns are normalised by their mean and variance over the nodes, scaled,
  shifted and rectified. The kernel program runs the two weight products and the normalisation in three regions
  (blocks of 2000 rows; a product into a zero accumulator with operands rounded to bf16, which on the extended reals is
  the exact sum over k of a(r, k) * w(k, c), the same sum as the reference's dot_general) and everything else as the
  same host operations as the reference, in the same order. No law beyond that equality of sums is used, so the
  precondition is never opened. The ideal pass rewrote nothing: `preserves` is trivial.
-/
import proofs.«182157_j43671227465977_1_alg».proof.Defs
import proofs.«182157_j43671227465977_1_alg».proof.Proof.Gen.Kernel
import proofs.«182157_j43671227465977_1_alg».proof.Proof.Gen.Kernel.Frame
import proofs.«182157_j43671227465977_1_alg».proof.Proof.Gen.KernelIdeal
import proofs.«182157_j43671227465977_1_alg».proof.Proof.Gen.KernelIdeal.Frame
import proofs.«182157_j43671227465977_1_alg».proof.Proof.Gen.ReferenceIdeal
import proofs.«182157_j43671227465977_1_alg».proof.Proof.Gen.Pre_finite_inputs
import proofs.«182157_j43671227465977_1_alg».proof.Proof.KGlue
import proofs.«182157_j43671227465977_1_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Ops.run_network m ρ)

/-- Both runs end with the result buffer at the network function of arguments that agree. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.GcnRun.result_eq m ρ c), (h c).2⟩) (Cert.KernelIdeal.GcnRun.run m ρ)
  · refine (θ_run Cert.ReferenceIdeal.defs _ _).mono (fun _ h c => ⟨(h c).1.trans ?_, (h c).2⟩)
      (Cert.ReferenceIdeal.Ops.run_network m' ρ')
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
